-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x128 : Shape := ⟨2, ![8192, 128]⟩
abbrev S384x512 : Shape := ⟨2, ![384, 512]⟩
abbrev S1x512 : Shape := ⟨2, ![1, 512]⟩
abbrev S512x256 : Shape := ⟨2, ![512, 256]⟩
abbrev S1x256 : Shape := ⟨2, ![1, 256]⟩
abbrev S256x256 : Shape := ⟨2, ![256, 256]⟩
abbrev S512x512 : Shape := ⟨2, ![512, 512]⟩
abbrev S256x128 : Shape := ⟨2, ![256, 128]⟩
abbrev S1x128 : Shape := ⟨2, ![1, 128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S384x512 : S_.BroadcastsInDim S384x512 (![] : Fin 0 → Fin S384x512.rank)
  reducesTo_S384x512_S_d0_1 : S384x512.ReducesTo [0, 1] S_
  bcast_S_S1x512 : S_.BroadcastsInDim S1x512 (![] : Fin 0 → Fin S1x512.rank)
  reducesTo_S1x512_S_d0_1 : S1x512.ReducesTo [0, 1] S_
  bcast_S_S512x256 : S_.BroadcastsInDim S512x256 (![] : Fin 0 → Fin S512x256.rank)
  reducesTo_S512x256_S_d0_1 : S512x256.ReducesTo [0, 1] S_
  bcast_S_S1x256 : S_.BroadcastsInDim S1x256 (![] : Fin 0 → Fin S1x256.rank)
  reducesTo_S1x256_S_d0_1 : S1x256.ReducesTo [0, 1] S_
  bcast_S_S256x256 : S_.BroadcastsInDim S256x256 (![] : Fin 0 → Fin S256x256.rank)
  reducesTo_S256x256_S_d0_1 : S256x256.ReducesTo [0, 1] S_
  bcast_S_S512x512 : S_.BroadcastsInDim S512x512 (![] : Fin 0 → Fin S512x512.rank)
  reducesTo_S512x512_S_d0_1 : S512x512.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part4 {F : FTy → Type} [FloatOps F] (main_arg14 : FVec F S1x128 .f32) (main_v63 : IVec S_ 1) (main_v67 : IVec S_ 1) : IVec S_ 1 :=
  let main_v68 : IVec S_ 1 := andi main_v63 main_v67
  let main_v69 : FVec F S1x128 .f32 := Host.absf main_arg14
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  main_v73

def fn_part3 {F : FTy → Type} [FloatOps F] (main_arg11 : FVec F S512x256 .f32) (main_arg12 : FVec F S1x256 .f32) (main_arg13 : FVec F S256x128 .f32) (main_arg14 : FVec F S1x128 .f32) (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  let main_v54 : FVec F S512x256 .f32 := Host.absf main_arg11
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_v63 main_v67

def fn_part2 {F : FTy → Type} [FloatOps F] (main_arg7 : FVec F S256x256 .f32) (main_arg8 : FVec F S1x256 .f32) (main_arg9 : FVec F S512x512 .f32) (main_arg10 : FVec F S1x512 .f32) (main_arg11 : FVec F S512x256 .f32) (main_arg12 : FVec F S1x256 .f32) (main_arg13 : FVec F S256x128 .f32) (main_arg14 : FVec F S1x128 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S1x256 .f32 := Host.absf main_arg8
  let main_cst_14 : FVec F S_ .f32 := constant S_ .f32 0x7F800000#32
  let main_v40 : FVec F S1x256 .f32 := broadcastInDim S1x256 ![] bcast_S_S1x256 main_cst_14
  let main_v41 : IVec S1x256 1 := cmpf .olt main_v39 main_v40
  let main_c_15 : IVec S_ 1 := constantI S_ 1 1#1
  let main_v42 : IVec S_ 1 := (fun x v => Host.reduce IntOp.andi x v reducesTo_S1x256_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S1x512 .f32 := Host.absf main_arg10
  let main_cst_18 : FVec F S_ .f32 := constant S_ .f32 0x7F800000#32
  let main_v50 : FVec F S1x512 .f32 := broadcastInDim S1x512 ![] bcast_S_S1x512 main_cst_18
  fn_part3 (F := F) main_arg11 main_arg12 main_arg13 main_arg14 main_v48 main_v49 main_v50

def fn_part1 {F : FTy → Type} [FloatOps F] (main_arg4 : FVec F S1x512 .f32) (main_arg5 : FVec F S512x256 .f32) (main_arg6 : FVec F S1x256 .f32) (main_arg7 : FVec F S256x256 .f32) (main_arg8 : FVec F S1x256 .f32) (main_arg9 : FVec F S512x512 .f32) (main_arg10 : FVec F S1x512 .f32) (main_arg11 : FVec F S512x256 .f32) (main_arg12 : FVec F S1x256 .f32) (main_arg13 : FVec F S256x128 .f32) (main_arg14 : FVec F S1x128 .f32) (main_v13 : IVec S_ 1) (main_v16 : IVec S384x512 1) : IVec S_ 1 :=
  let main_c_5 : IVec S_ 1 := constantI S_ 1 1#1
  let main_v17 : IVec S_ 1 := (fun x v => Host.reduce IntOp.andi x v reducesTo_S384x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x256 .f32) (main_arg1 : FVec F S8192x256 .f32) (main_arg2 : FVec F S8192x128 .f32) (main_arg3 : FVec F S384x512 .f32) (main_arg4 : FVec F S1x512 .f32) (main_arg5 : FVec F S512x256 .f32) (main_arg6 : FVec F S1x256 .f32) (main_arg7 : FVec F S256x256 .f32) (main_arg8 : FVec F S1x256 .f32) (main_arg9 : FVec F S512x512 .f32) (main_arg10 : FVec F S1x512 .f32) (main_arg11 : FVec F S512x256 .f32) (main_arg12 : FVec F S1x256 .f32) (main_arg13 : FVec F S256x128 .f32) (main_arg14 : FVec F S1x128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  let main_v14 : FVec F S384x512 .f32 := Host.absf main_arg3
  let main_cst_4 : FVec F S_ .f32 := constant S_ .f32 0x7F800000#32
  let main_v15 : FVec F S384x512 .f32 := broadcastInDim S384x512 ![] bcast_S_S384x512 main_cst_4
  let main_v16 : IVec S384x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x256 : Shape := ⟨2, ![8192, 256]⟩
abbrev S8192x128 : Shape := ⟨2, ![8192, 128]⟩
abbrev S384x512 : Shape := ⟨2, ![384, 512]⟩
abbrev S1x512 : Shape := ⟨2, ![1, 512]⟩
abbrev S512x256 : Shape := ⟨2, ![512, 256]⟩
abbrev S1x256 : Shape := ⟨2, ![1, 256]⟩
abbrev S256x256 : Shape := ⟨2, ![256, 256]⟩
abbrev S512x512 : Shape := ⟨2, ![512, 512]⟩
abbrev S256x128 : Shape := ⟨2, ![256, 128]⟩
abbrev S1x128 : Shape := ⟨2, ![1, 128]⟩
abbrev S1024x256 : Shape := ⟨2, ![1024, 256]⟩
abbrev S1024x128 : Shape := ⟨2, ![1024, 128]⟩
abbrev S256x512 : Shape := ⟨2, ![256, 512]⟩
abbrev S1024x512 : Shape := ⟨2, ![1024, 512]⟩
abbrev S128x512 : Shape := ⟨2, ![128, 512]⟩

abbrev nBuf : Space → Nat
  | .hbm => 17
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x128, .f32⟩
  | .hbm, ⟨3, _⟩ => ⟨S384x512, .f32⟩
  | .hbm, ⟨4, _⟩ => ⟨S1x512, .f32⟩
  | .hbm, ⟨5, _⟩ => ⟨S512x256, .f32⟩
  | .hbm, ⟨6, _⟩ => ⟨S1x256, .f32⟩
  | .hbm, ⟨7, _⟩ => ⟨S256x256, .f32⟩
  | .hbm, ⟨8, _⟩ => ⟨S1x256, .f32⟩
  | .hbm, ⟨9, _⟩ => ⟨S512x512, .f32⟩
  | .hbm, ⟨10, _⟩ => ⟨S1x512, .f32⟩
  | .hbm, ⟨11, _⟩ => ⟨S512x256, .f32⟩
  | .hbm, ⟨12, _⟩ => ⟨S1x256, .f32⟩
  | .hbm, ⟨13, _⟩ => ⟨S256x128, .f32⟩
  | .hbm, ⟨14, _⟩ => ⟨S1x128, .f32⟩
  | .hbm, ⟨15, _⟩ => ⟨S8192x256, .f32⟩
  | .hbm, ⟨16, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x128, .f32⟩
  | .local _ .vmem, ⟨5, _⟩ => ⟨S1024x128, .f32⟩
  | .local _ .vmem, ⟨6, _⟩ => ⟨S384x512, .f32⟩
  | .local _ .vmem, ⟨7, _⟩ => ⟨S1x512, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S512x512, .f32⟩
  | .local _ .vmem, ⟨13, _⟩ => ⟨S1x512, .f32⟩
  | .local _ .vmem, ⟨14, _⟩ => ⟨S512x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S1024x256, .f32⟩
  | .local _ .vmem, ⟨19, _⟩ => ⟨S1024x256, .f32⟩
  | .local _ .vmem, ⟨20, _⟩ => ⟨S1024x128, .f32⟩
  | .local _ .vmem, ⟨21, _⟩ => ⟨S1024x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S384x512_S256x512_0_0 : ∀ a, (![0, 0] : Fin 2 → Nat) a + S256x512.size a ≤ S384x512.size a
  h_S256x512 : 0 < S256x512.numel
  inb_S384x512_S128x512_256_0 : ∀ a, (![256, 0] : Fin 2 → Nat) a + S128x512.size a ≤ S384x512.size a
  h_S128x512 : 0 < S128x512.numel
  inb_S512x512_S256x512_0_0 : ∀ a, (![0, 0] : Fin 2 → Nat) a + S256x512.size a ≤ S512x512.size a
  inb_S512x512_S256x512_256_0 : ∀ a, (![256, 0] : Fin 2 → Nat) a + S256x512.size a ≤ S512x512.size a
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S1024x128 : S1x128.Broadcasts S1024x128
  dot_S1024x256_S256x512_S1024x512_1_0_0_1_n_n_wf : DotDims.WF S1024x256 S256x512 S1024x512 [1] [0] [0] [1] [] []
  dot_S1024x128_S128x512_S1024x512_1_0_0_1_n_n_wf : DotDims.WF S1024x128 S128x512 S1024x512 [1] [0] [0] [1] [] []
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x512.size a ≤ S384x512.size a
  hwx0_3 : ∀ i : grid0.Coords, EltTy.bits .f32 = 32 ∨ (Rect.block (s := S384x512) S384x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S512x256.size a
  hwx0_11 : ∀ i : grid0.Coords, EltTy.bits .f32 = 32 ∨ (Rect.block (s := S512x256) S512x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .f32 = 32 ∨ (Rect.block (s := S256x128) S256x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S8192x256.size a
  hwx0_15 : ∀ i : grid0.Coords, EltTy.bits .f32 = 32 ∨ (Rect.block (s := S8192x256) S1024x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x128.size a ≤ S8192x128.size a
  hwx0_16 : ∀ i : grid0.Coords, EltTy.bits .f32 = 32 ∨ (Rect.block (s := S8192x128) S1024x128.size (cc0_transform_16 i) (hinb0_16 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S1024x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S1024x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x128 : Shape := ⟨2, ![8192, 128]⟩
abbrev S384x512 : Shape := ⟨2, ![384, 512]⟩
abbrev S1x512 : Shape := ⟨2, ![1, 512]⟩
abbrev S512x256 : Shape := ⟨2, ![512, 256]⟩
abbrev S1x256 : Shape := ⟨2, ![1, 256]⟩
abbrev S256x256 : Shape := ⟨2, ![256, 256]⟩
abbrev S512x512 : Shape := ⟨2, ![512, 512]⟩
abbrev S256x128 : Shape := ⟨2, ![256, 128]⟩
abbrev S1x128 : Shape := ⟨2, ![1, 128]⟩
abbrev S256x512 : Shape := ⟨2, ![256, 512]⟩
abbrev S128x512 : Shape := ⟨2, ![128, 512]⟩
abbrev S_ : Shape := ⟨0, ![]⟩
abbrev S256x384 : Shape := ⟨2, ![256, 384]⟩
abbrev S1 : Shape := ⟨1, ![1]⟩
abbrev S1x384 : Shape := ⟨2, ![1, 384]⟩
abbrev S8192x384 : Shape := ⟨2, ![8192, 384]⟩
abbrev S512x128 : Shape := ⟨2, ![512, 128]⟩
abbrev S512x384 : Shape := ⟨2, ![512, 384]⟩

abbrev nBuf : Space → Nat
  | .hbm => 40
  | .vmem => 21
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x128, .f32⟩
  | .hbm, ⟨3, _⟩ => ⟨S384x512, .f32⟩
  | .hbm, ⟨4, _⟩ => ⟨S1x512, .f32⟩
  | .hbm, ⟨5, _⟩ => ⟨S512x256, .f32⟩
  | .hbm, ⟨6, _⟩ => ⟨S1x256, .f32⟩
  | .hbm, ⟨7, _⟩ => ⟨S256x256, .f32⟩
  | .hbm, ⟨8, _⟩ => ⟨S1x256, .f32⟩
  | .hbm, ⟨9, _⟩ => ⟨S512x512, .f32⟩
  | .hbm, ⟨10, _⟩ => ⟨S1x512, .f32⟩
  | .hbm, ⟨11, _⟩ => ⟨S512x256, .f32⟩
  | .hbm, ⟨12, _⟩ => ⟨S1x256, .f32⟩
  | .hbm, ⟨13, _⟩ => ⟨S256x128, .f32⟩
  | .hbm, ⟨14, _⟩ => ⟨S1x128, .f32⟩
  | .hbm, ⟨15, _⟩ => ⟨S256x512, .f32⟩
  | .hbm, ⟨16, _⟩ => ⟨S128x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x384, .f32⟩
  | .hbm, ⟨21, _⟩ => ⟨S_, .i32⟩
  | .hbm, ⟨22, _⟩ => ⟨S1, .i32⟩
  | .hbm, ⟨23, _⟩ => ⟨S256x384, .f32⟩
  | .hbm, ⟨24, _⟩ => ⟨S_, .f32⟩
  | .hbm, ⟨25, _⟩ => ⟨S256x384, .f32⟩
  | .hbm, ⟨26, _⟩ => ⟨S_, .i32⟩
  | .hbm, ⟨27, _⟩ => ⟨S1, .i32⟩
  | .hbm, ⟨28, _⟩ => ⟨S256x384, .f32⟩
  | .hbm, ⟨29, _⟩ => ⟨S_, .f32⟩
  | .hbm, ⟨30, _⟩ => ⟨S1x384, .f32⟩
  | .hbm, ⟨31, _⟩ => ⟨S_, .i32⟩
  | .hbm, ⟨32, _⟩ => ⟨S1, .i32⟩
  | .hbm, ⟨33, _⟩ => ⟨S1x384, .f32⟩
  | .hbm, ⟨34, _⟩ => ⟨S_, .i32⟩
  | .hbm, ⟨35, _⟩ => ⟨S1, .i32⟩
  | .hbm, ⟨36, _⟩ => ⟨S1x384, .f32⟩
  | .hbm, ⟨37, _⟩ => ⟨S8192x384, .f32⟩
  | .hbm, ⟨38, _⟩ => ⟨S8192x256, .f32⟩
  | .hbm, ⟨39, _⟩ => ⟨S8192x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S256x512, .f32⟩
  | .local _ .vmem, ⟨7, _⟩ => ⟨S128x512, .f32⟩
  | .local _ .vmem, ⟨8, _⟩ => ⟨S1x512, .f32⟩
  | .local _ .vmem, ⟨9, _⟩ => ⟨S512x256, .f32⟩
  | .local _ .vmem, ⟨10, _⟩ => ⟨S1x256, .f32⟩
  | .local _ .vmem, ⟨11, _⟩ => ⟨S256x384, .f32⟩
  | .local _ .vmem, ⟨12, _⟩ => ⟨S256x512, .f32⟩
  | .local _ .vmem, ⟨13, _⟩ => ⟨S256x512, .f32⟩
  | .local _ .vmem, ⟨14, _⟩ => ⟨S1x512, .f32⟩
  | .local _ .vmem, ⟨15, _⟩ => ⟨S512x256, .f32⟩
  | .local _ .vmem, ⟨16, _⟩ => ⟨S1x256, .f32⟩
  | .local _ .vmem, ⟨17, _⟩ => ⟨S256x384, .f32⟩
  | .local _ .vmem, ⟨18, _⟩ => ⟨S1x384, .f32⟩
  | .local _ .vmem, ⟨19, _⟩ => ⟨S512x384, .f32⟩
  | .local _ .vmem, ⟨20, _⟩ => ⟨S512x384, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S384x512_S256x512_0_0 : S384x512.Slices ![0, 0] S256x512
  slices_S384x512_S128x512_256_0 : S384x512.Slices ![256, 0] S128x512
  slices_S512x512_S256x512_0_0 : S512x512.Slices ![0, 0] S256x512
  slices_S512x512_S256x512_256_0 : S512x512.Slices ![256, 0] S256x512
  bcast_S_S256x384 : S_.BroadcastsInDim S256x384 (![] : Fin 0 → Fin S256x384.rank)
  bcast_S_S1 : S_.BroadcastsInDim S1 (![] : Fin 0 → Fin S1.rank)
  bcast_S_S1x384 : S_.BroadcastsInDim S1x384 (![] : Fin 0 → Fin S1x384.rank)
  inb_S512x256_S512x256_0_0 : ∀ a, (![0, 0] : Fin 2 → Nat) a + S512x256.size a ≤ S512x256.size a
  h_S512x256 : 0 < S512x256.numel
  inb_S512x128_S512x128_0_0 : ∀ a, (![0, 0] : Fin 2 → Nat) a + S512x128.size a ≤ S512x128.size a
  h_S512x128 : 0 < S512x128.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  broadcasts_S1x512_S512x512 : S1x512.Broadcasts S512x512
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S512x384_S512x384_0_0 : ∀ a, (![0, 0] : Fin 2 → Nat) a + S512x384.size a ≤ S512x384.size a
  h_S512x384 : 0 < S512x384.numel
  slices_S8192x384_S8192x256_0_0 : S8192x384.Slices ![0, 0] S8192x256
  slices_S8192x384_S8192x128_0_256 : S8192x384.Slices ![0, 256] S8192x128
  scatter_S256x384_S1_S256x256_01_n_1_0_wf : ScatterDims.WF S256x384 S1 S256x256 [0, 1] [] [1] 0
  scatter_S256x384_S1_S256x128_01_n_1_0_wf : ScatterDims.WF S256x384 S1 S256x128 [0, 1] [] [1] 0
  scatter_S1x384_S1_S1x256_01_n_1_0_wf : ScatterDims.WF S1x384 S1 S1x256 [0, 1] [] [1] 0
  scatter_S1x384_S1_S1x128_01_n_1_0_wf : ScatterDims.WF S1x384 S1 S1x128 [0, 1] [] [1] 0
  dot_S512x256_S256x512_S512x512_1_0_0_1_n_n_wf : DotDims.WF S512x256 S256x512 S512x512 [1] [0] [0] [1] [] []
  dot_S512x128_S128x512_S512x512_1_0_0_1_n_n_wf : DotDims.WF S512x128 S128x512 S512x512 [1] [0] [0] [1] [] []
  dot_S512x512_S512x256_S512x256_1_0_0_1_n_n_wf : DotDims.WF S512x512 S512x256 S512x256 [1] [0] [0] [1] [] []
  dot_S512x256_S256x384_S512x384_1_0_0_1_n_n_wf : DotDims.WF S512x256 S256x384 S512x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x384.size a ≤ S256x384.size a
  hwx0_8 : ∀ i : grid0.Coords, EltTy.bits .f32 = 32 ∨ (Rect.block (s := S256x384) S256x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x512.size a
  hwx0_9 : ∀ i : grid0.Coords, EltTy.bits .f32 = 32 ∨ (Rect.block (s := S256x512) S256x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S256x512.size a
  hwx0_10 : ∀ i : grid0.Coords, EltTy.bits .f32 = 32 ∨ (Rect.block (s := S256x512) S256x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S512x256.size a
  hwx0_12 : ∀ i : grid0.Coords, EltTy.bits .f32 = 32 ∨ (Rect.block (s := S512x256) S512x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x384.size a ≤ S256x384.size a
  hwx0_14 : ∀ i : grid0.Coords, EltTy.bits .f32 = 32 ∨ (Rect.block (s := S256x384) S256x384.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x384.size a ≤ S1x384.size a
  hwx0_15 : ∀ i : grid0.Coords, EltTy.bits .f32 = 32 ∨ (Rect.block (s := S1x384) S1x384.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x384.size a ≤ S8192x384.size a
  hwx0_16 : ∀ i : grid0.Coords, EltTy.bits .f32 = 32 ∨ (Rect.block (s := S8192x384) S512x384.size (cc0_transform_16 i) (hinb0_16 i)).WholeWords (EltTy.packing .f32)

variable [Facts₀]

def scatter_S256x384_S1_S256x256_01_n_1_0 : ScatterDims S256x384 S1 S256x256 where
  updateWindowDims := [0, 1]
  insertedWindowDims := []
  scatterDimsToOperandDims := [1]
  indexVectorDim := 0
  wf := scatter_S256x384_S1_S256x256_01_n_1_0_wf
def scatter_S256x384_S1_S256x128_01_n_1_0 : ScatterDims S256x384 S1 S256x128 where
  updateWindowDims := [0, 1]
  insertedWindowDims := []
  scatterDimsToOperandDims := [1]
  indexVectorDim := 0
  wf := scatter_S256x384_S1_S256x128_01_n_1_0_wf
def scatter_S1x384_S1_S1x256_01_n_1_0 : ScatterDims S1x384 S1 S1x256 where
  updateWindowDims := [0, 1]
  insertedWindowDims := []
  scatterDimsToOperandDims := [1]
  indexVectorDim := 0
  wf := scatter_S1x384_S1_S1x256_01_n_1_0_wf
def scatter_S1x384_S1_S1x128_01_n_1_0 : ScatterDims S1x384 S1 S1x128 where
  updateWindowDims := [0, 1]
  insertedWindowDims := []
  scatterDimsToOperandDims := [1]
  indexVectorDim := 0
  wf := scatter_S1x384_S1_S1x128_01_n_1_0_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x384_S512x384_1_0_0_1_n_n : DotDims S512x256 S256x384 S512x384 where
  lhsContracting := [1]
  rhsContracting := [0]
  lhsNonContracting := [0]
  rhsNonContracting := [1]
  lhsBatch := []
  rhsBatch := []
  wf := dot_S512x256_S256x384_S512x384_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S256x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S256x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S512x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S256x384.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S1x384.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S512x384.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«118160_g2000603512130328_pallasbulk_154_24_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«118160_g2000603512130328_pallasbulk_154_24_alg».proof.Proof.LibDenseRows
import proofs.«118160_g2000603512130328_pallasbulk_154_24_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibMlpHead.lean ====
/-
  One head of a three-layer perceptron over the extended reals, one row at a time, generic in the sizes.

  The first layer takes the row in two parts (x of width A, y of width B) with the first weight matrix cut the
  same way; each hidden layer adds a bias and takes the maximum with zero; the last layer adds a bias only.
  Also the law that lets two heads share one wide last layer: when the last weights of the two heads are laid
  side by side in a wider matrix padded with zeros, a column of the wide result that belongs to one head is
  that head's own result, because a product with zero is zero and a sum of zeros adds nothing, on every
  extended real.
-/
import Mathlib

noncomputable section

open scoped BigOperators

namespace Cert.MlpHead

variable {A B H1 H2 O : ℕ}

/-- First hidden layer of a row given in two parts: max (x·Wx + y·Wy + b, 0). -/
def hidden1 (x : Fin A → EReal) (y : Fin B → EReal) (wx : Fin A → Fin H1 → EReal) (wy : Fin B → Fin H1 → EReal)
    (b : Fin H1 → EReal) (j : Fin H1) : EReal :=
  max (((∑ k : Fin A, x k * wx k j) + (∑ k : Fin B, y k * wy k j)) + b j) 0

/-- A further hidden layer: max (h·W + b, 0). -/
def hidden2 (h : Fin H1 → EReal) (w : Fin H1 → Fin H2 → EReal) (b : Fin H2 → EReal) (j : Fin H2) : EReal :=
  max ((∑ k : Fin H1, h k * w k j) + b j) 0

/-- The last layer: h·W + b. -/
def last (h : Fin H2 → EReal) (w : Fin H2 → Fin O → EReal) (b : Fin O → EReal) (j : Fin O) : EReal :=
  (∑ k : Fin H2, h k * w k j) + b j

/-- The whole head on one row. -/
def head (x : Fin A → EReal) (y : Fin B → EReal) (wx : Fin A → Fin H1 → EReal) (wy : Fin B → Fin H1 → EReal)
    (b1 : Fin H1 → EReal) (w2 : Fin H1 → Fin H2 → EReal) (b2 : Fin H2 → EReal) (w3 : Fin H2 → Fin O → EReal)
    (b3 : Fin O → EReal) (j : Fin O) : EReal :=
  last (hidden2 (hidden1 x y wx wy b1) w2 b2) w3 b3 j

/-- Two heads through one wide last layer: at a column where the second head's padded weights vanish, the
    wide result is the first head's last layer. -/
theorem shared_last_left {H2' W : ℕ} (h : Fin H2 → EReal) (g : Fin H2' → EReal) (wp : Fin H2 → Fin W → EReal)
    (wi : Fin H2' → Fin W → EReal) (bb : Fin W → EReal) (w3 : Fin H2 → Fin O → EReal) (b3 : Fin O → EReal)
    (c : Fin W) (j : Fin O) (hp : ∀ k, wp k c = w3 k j) (hi : ∀ k, wi k c = 0) (hb : bb c = b3 j) :
    ((∑ k : Fin H2, h k * wp k c) + (∑ k : Fin H2', g k * wi k c)) + bb c = last h w3 b3 j := by
  simp only [last, hp, hi, hb, mul_zero, Finset.sum_const_zero, add_zero]

/-- The same at a column where the first head's padded weights vanish. -/
theorem shared_last_right {H2' W : ℕ} (h : Fin H2 → EReal) (g : Fin H2' → EReal) (wp : Fin H2 → Fin W → EReal)
    (wi : Fin H2' → Fin W → EReal) (bb : Fin W → EReal) (w3 : Fin H2' → Fin O → EReal) (b3 : Fin O → EReal)
    (c : Fin W) (j : Fin O) (hp : ∀ k, wp k c = 0) (hi : ∀ k, wi k c = w3 k j) (hb : bb c = b3 j) :
    ((∑ k : Fin H2, h k * wp k c) + (∑ k : Fin H2', g k * wi k c)) + bb c = last g w3 b3 j := by
  simp only [last, hp, hi, hb, mul_zero, Finset.sum_const_zero, zero_add]

/-- Two heads that share the first part of the row, through ONE wide last layer: the forward head's second hidden
    layer times the padded forward weights, plus the inverse head's times the padded inverse weights, plus the
    packed bias, at column c. -/
def wide {B' H1' H2' W : ℕ} (x : Fin A → EReal) (y : Fin B → EReal) (y' : Fin B' → EReal)
    (wx : Fin A → Fin H1 → EReal) (wy : Fin B → Fin H1 → EReal) (b1 : Fin H1 → EReal)
    (w2 : Fin H1 → Fin H2 → EReal) (b2 : Fin H2 → EReal) (wp : Fin H2 → Fin W → EReal)
    (wx' : Fin A → Fin H1' → EReal) (wy' : Fin B' → Fin H1' → EReal) (b1' : Fin H1' → EReal)
    (w2' : Fin H1' → Fin H2' → EReal) (b2' : Fin H2' → EReal) (wi : Fin H2' → Fin W → EReal)
    (bb : Fin W → EReal) (c : Fin W) : EReal :=
  ((∑ k : Fin H2, hidden2 (hidden1 x y wx wy b1) w2 b2 k * wp k c)
    + (∑ k : Fin H2', hidden2 (hidden1 x y' wx' wy' b1') w2' b2' k * wi k c)) + bb c

/-- At a column where the padded inverse weights vanish, the wide layer is the forward head. -/
theorem wide_left {B' H1' H2' W : ℕ} (x : Fin A → EReal) (y : Fin B → EReal) (y' : Fin B' → EReal)
    (wx : Fin A → Fin H1 → EReal) (wy : Fin B → Fin H1 → EReal) (b1 : Fin H1 → EReal)
    (w2 : Fin H1 → Fin H2 → EReal) (b2 : Fin H2 → EReal) (wp : Fin H2 → Fin W → EReal)
    (wx' : Fin A → Fin H1' → EReal) (wy' : Fin B' → Fin H1' → EReal) (b1' : Fin H1' → EReal)
    (w2' : Fin H1' → Fin H2' → EReal) (b2' : Fin H2' → EReal) (wi : Fin H2' → Fin W → EReal)
    (bb : Fin W → EReal) (w3 : Fin H2 → Fin O → EReal) (b3 : Fin O → EReal) (c : Fin W) (j : Fin O)
    (hp : ∀ k, wp k c = w3 k j) (hi : ∀ k, wi k c = 0) (hb : bb c = b3 j) :
    wide x y y' wx wy b1 w2 b2 wp wx' wy' b1' w2' b2' wi bb c = head x y wx wy b1 w2 b2 w3 b3 j :=
  shared_last_left _ _ wp wi bb w3 b3 c j hp hi hb

/-- At a column where the padded forward weights vanish, it is the inverse head. -/
theorem wide_right {B' H1' H2' W : ℕ} (x : Fin A → EReal) (y : Fin B → EReal) (y' : Fin B' → EReal)
    (wx : Fin A → Fin H1 → EReal) (wy : Fin B → Fin H1 → EReal) (b1 : Fin H1 → EReal)
    (w2 : Fin H1 → Fin H2 → EReal) (b2 : Fin H2 → EReal) (wp : Fin H2 → Fin W → EReal)
    (wx' : Fin A → Fin H1' → EReal) (wy' : Fin B' → Fin H1' → EReal) (b1' : Fin H1' → EReal)
    (w2' : Fin H1' → Fin H2' → EReal) (b2' : Fin H2' → EReal) (wi : Fin H2' → Fin W → EReal)
    (bb : Fin W → EReal) (w3 : Fin H2' → Fin O → EReal) (b3 : Fin O → EReal) (c : Fin W) (j : Fin O)
    (hp : ∀ k, wp k c = 0) (hi : ∀ k, wi k c = w3 k j) (hb : bb c = b3 j) :
    wide x y y' wx wy b1 w2 b2 wp wx' wy' b1' w2' b2' wi bb c = head x y' wx' wy' b1' w2' b2' w3 b3 j :=
  shared_last_right _ _ wp wi bb w3 b3 c j hp hi hb

end Cert.MlpHead

end
-- ==== Proof.IcmSpec.lean ====
/-
  The two results as whole-array functions of the fifteen argument arrays, over the extended reals.

  Row r of the first result is the forward head of row r of the state and of the action, through the first forward
  weight matrix cut after its 256th row; row r of the second result is the inverse head of row r of the state and of
  the next state, through the first inverse weight matrix cut the same way. Both programs are shown to end at these
  two functions.
-/
import Idealize.ShloMosaic.Lib.ValueIdx
import proofs.«118160_g2000603512130328_pallasbulk_154_24_alg».proof.Proof.LibMlpHead

noncomputable section

namespace Cert.IcmSpec

open Idealize.ShloMosaic Idealize.ShloMosaic.ValueIdx Cert.MlpHead

/-- The first `a` rows of a matrix, as a function of row and column. -/
def topRows {A N : ℕ} (a : ℕ) (ha : a ≤ A) (x : (⟨2, ![A, N]⟩ : Shape).Idx → EReal) : Fin a → Fin N → EReal :=
  fun k j => x (ix2 ⟨k.val, Nat.lt_of_lt_of_le k.isLt ha⟩ j)

/-- The `b` rows from row `o` on. -/
def rowsFrom {A N : ℕ} (o b : ℕ) (hb : o + b ≤ A) (x : (⟨2, ![A, N]⟩ : Shape).Idx → EReal) : Fin b → Fin N → EReal :=
  fun k j => x (ix2 ⟨o + k.val, Nat.lt_of_lt_of_le (Nat.add_lt_add_left k.isLt o) hb⟩ j)

/-- A whole matrix as a function of row and column. -/
def mat {A N : ℕ} (x : (⟨2, ![A, N]⟩ : Shape).Idx → EReal) : Fin A → Fin N → EReal := fun k j => x (ix2 k j)

/-- Row p of a matrix. -/
def row {A N : ℕ} (x : (⟨2, ![A, N]⟩ : Shape).Idx → EReal) (p : Fin A) : Fin N → EReal := fun k => x (ix2 p k)

/-- The predicted next state: at (r, j) the forward head of row r. -/
def nsPred (s : (⟨2, ![8192, 256]⟩ : Shape).Idx → EReal) (a : (⟨2, ![8192, 128]⟩ : Shape).Idx → EReal)
    (w1 : (⟨2, ![384, 512]⟩ : Shape).Idx → EReal) (b1 : (⟨2, ![1, 512]⟩ : Shape).Idx → EReal)
    (w2 : (⟨2, ![512, 256]⟩ : Shape).Idx → EReal) (b2 : (⟨2, ![1, 256]⟩ : Shape).Idx → EReal)
    (w3 : (⟨2, ![256, 256]⟩ : Shape).Idx → EReal) (b3 : (⟨2, ![1, 256]⟩ : Shape).Idx → EReal) :
    (⟨2, ![8192, 256]⟩ : Shape).Idx → EReal :=
  fun i => head (row s (i 0)) (row a (i 0)) (topRows 256 (by norm_num) w1) (rowsFrom 256 128 (by norm_num) w1) (row b1 0)
    (mat w2) (row b2 0) (mat w3) (row b3 0) (i 1)

/-- The predicted action: at (r, j) the inverse head of row r. -/
def actPred (s : (⟨2, ![8192, 256]⟩ : Shape).Idx → EReal) (n : (⟨2, ![8192, 256]⟩ : Shape).Idx → EReal)
    (w1 : (⟨2, ![512, 512]⟩ : Shape).Idx → EReal) (b1 : (⟨2, ![1, 512]⟩ : Shape).Idx → EReal)
    (w2 : (⟨2, ![512, 256]⟩ : Shape).Idx → EReal) (b2 : (⟨2, ![1, 256]⟩ : Shape).Idx → EReal)
    (w3 : (⟨2, ![256, 128]⟩ : Shape).Idx → EReal) (b3 : (⟨2, ![1, 128]⟩ : Shape).Idx → EReal) :
    (⟨2, ![8192, 128]⟩ : Shape).Idx → EReal :=
  fun i => head (row s (i 0)) (row n (i 0)) (topRows 256 (by norm_num) w1) (rowsFrom 256 256 (by norm_num) w1) (row b1 0)
    (mat w2) (row b2 0) (mat w3) (row b3 0) (i 1)

end Cert.IcmSpec

end
-- ==== Proof.LibBlockLoad.lean ====
/-
  A load of a rectangle of consecutive rows and columns out of a two-dimensional block, read at an entry:
  the entry (p, q) of the loaded piece is the block's entry at (row offset + p, column offset + q).
-/
import Idealize.ShloMosaic.Lib.ValueIdx
import Idealize.ShloMosaic.Lib.Pipeline.Value

noncomputable section

namespace Cert.BlockLoad

open Idealize.ShloMosaic Idealize.ShloMosaic.ValueIdx

/-- The piece of sizes [a, b] at offsets (o0, o1) of an [A, B] block, at (p, q). -/
theorem ld_unit_ix2 {Val : EltTy → Type} {e : EltTy} {A B a b : ℕ} (X : (⟨2, ![A, B]⟩ : Shape).Idx → Val e) (o0 o1 : ℕ)
    (inb : ∀ ax, (![o0, o1] : Fin 2 → ℕ) ax + (⟨2, ![a, b]⟩ : Shape).size ax ≤ (⟨2, ![A, B]⟩ : Shape).size ax)
    (p : Fin a) (q : Fin b) (r : Fin A) (c : Fin B) (hr : r.val = o0 + p.val) (hc : c.val = o1 + q.val) :
    View.ld (Val := Val) X (Rect.unit (s := ⟨2, ![A, B]⟩) ![o0, o1] (⟨2, ![a, b]⟩ : Shape).size inb) (ix2 p q) = X (ix2 r c) := by
  show X _ = X _
  refine congrArg X (funext fun ax => Fin.ext ?_)
  match ax with
  | ⟨0, _⟩ => show o0 + 1 * p.val = r.val; omega
  | ⟨1, _⟩ => show o1 + 1 * q.val = c.val; omega

end Cert.BlockLoad

end
-- ==== Proof.KernelRows.lean ====
/-
  What the kernel's body leaves in its two output blocks, one entry at a time, over the extended reals.

  With the changes of float format read as the identity, entry (p, j) of the first output block is the forward
  head of row p — the state row and the action row through the first weight matrix cut after its 256th row, two
  hidden layers with bias and maximum with zero, and the last layer with bias — and entry (p, j) of the second
  output block is the inverse head of row p, from the state row and the next-state row.
-/
import proofs.«118160_g2000603512130328_pallasbulk_154_24_alg».proof.Proof.Gen.KernelIdeal.Frame
import Idealize.ShloMosaic.Lib.IdealHost
import proofs.«118160_g2000603512130328_pallasbulk_154_24_alg».proof.Proof.LibPlainLayers
import proofs.«118160_g2000603512130328_pallasbulk_154_24_alg».proof.Proof.IcmSpec
import proofs.«118160_g2000603512130328_pallasbulk_154_24_alg».proof.Proof.LibBlockLoad

set_option maxRecDepth 16384

noncomputable section

open scoped BigOperators

namespace Cert.KernelIdeal.Rows

open Cert.KernelIdeal Cert.KernelIdeal.Gen Idealize.ShloMosaic Idealize.ShloMosaic.ValueIdx Cert.MlpHead Cert.IcmSpec

/-- The first hidden layer of the forward head at (p, j). -/
theorem pay2_apply (v0 : Vec Ideal S1024x256 .f32) (v4 : Vec Ideal S1024x128 .f32) (v6 : Vec Ideal S256x512 .f32)
    (v9 : Vec Ideal S128x512 .f32) (v21 : Vec Ideal S1x512 .f32) (p : Fin 1024) (j : Fin 512) :
    k0_pay2 (F := Ideal) v0 v4 v6 v9 v21 (ix2 p j)
      = hidden1 (row v0 p) (row v4 p) (mat v6) (mat v9) (row v21 0) j :=
  congrArg₂ max (congrArg₂ (· + ·) (congrArg₂ (· + ·) (PlainLayers.plainMM_of_eq _ rfl none _ _ p j)
    (PlainLayers.plainMM_of_eq _ rfl none _ _ p j)) (broadcastTo_1b_ab_apply _ _ p j)) Ideal.ofBits_zero_bf16

/-- The first hidden layer of the inverse head at (p, j). -/
theorem pay3_apply (v0 : Vec Ideal S1024x256 .f32) (v2 : Vec Ideal S1024x256 .f32) (v13 : Vec Ideal S256x512 .f32)
    (v16 : Vec Ideal S256x512 .f32) (v28 : Vec Ideal S1x512 .f32) (p : Fin 1024) (j : Fin 512) :
    k0_pay3 (F := Ideal) v0 v2 v13 v16 v28 (ix2 p j)
      = hidden1 (row v0 p) (row v2 p) (mat v13) (mat v16) (row v28 0) j :=
  congrArg₂ max (congrArg₂ (· + ·) (congrArg₂ (· + ·) (PlainLayers.plainMM_of_eq _ rfl none _ _ p j)
    (PlainLayers.plainMM_of_eq _ rfl none _ _ p j)) (broadcastTo_1b_ab_apply _ _ p j)) Ideal.ofBits_zero_bf16

/-- The second hidden layer and the last layer of the forward head at (p, j), from the first hidden layer's block. -/
theorem pay4_apply (v26 : FVec Ideal S1024x512 .bf16) (v34 : Vec Ideal S512x256 .f32) (v41 : Vec Ideal S1x256 .f32)
    (v54 : Vec Ideal S256x256 .f32) (v57 : Vec Ideal S1x256 .f32) (p : Fin 1024) (j : Fin 256) :
    k0_pay4 (F := Ideal) v26 v34 v41 v54 v57 (ix2 p j)
      = last (hidden2 (row v26 p) (mat v34) (row v41 0)) (mat v54) (row v57 0) j := by
  unfold k0_pay4 last
  refine congrArg₂ (· + ·) ((PlainLayers.plainMM_of_eq _ rfl none _ _ p j).trans
    (Finset.sum_congr rfl fun k _ => congrArg (· * _) ?_)) (broadcastTo_1b_ab_apply _ _ p j)
  exact congrArg₂ max (congrArg₂ (· + ·) (PlainLayers.plainMM_of_eq _ rfl none _ _ p k)
    (broadcastTo_1b_ab_apply _ _ p k)) Ideal.ofBits_zero_bf16

/-- The second hidden layer and the last layer of the inverse head at (p, j). -/
theorem pay5_apply (v33 : FVec Ideal S1024x512 .bf16) (v37 : Vec Ideal S512x256 .f32) (v48 : Vec Ideal S1x256 .f32)
    (v61 : Vec Ideal S256x128 .f32) (v64 : Vec Ideal S1x128 .f32) (p : Fin 1024) (j : Fin 128) :
    k0_pay5 (F := Ideal) v33 v37 v48 v61 v64 (ix2 p j)
      = last (hidden2 (row v33 p) (mat v37) (row v48 0)) (mat v61) (row v64 0) j := by
  unfold k0_pay5 last
  refine congrArg₂ (· + ·) ((PlainLayers.plainMM_of_eq _ rfl none _ _ p j).trans
    (Finset.sum_congr rfl fun k _ => congrArg (· * _) ?_)) (broadcastTo_1b_ab_apply _ _ p j)
  exact congrArg₂ max (congrArg₂ (· + ·) (PlainLayers.plainMM_of_eq _ rfl none _ _ p k)
    (broadcastTo_1b_ab_apply _ _ p k)) Ideal.ofBits_zero_bf16

theorem hz2 : (![0, 0] : Fin 2 → ℕ) = fun _ => 0 := by funext a; fin_cases a <;> rfl

/-- Entry (p, j) of the first output block: the forward head of row p of the state and action blocks. -/
theorem out15_apply (x0 : Vec Ideal S1024x256 .f32) (x1 : Vec Ideal S1024x256 .f32) (x2 : Vec Ideal S1024x128 .f32)
    (x3 : Vec Ideal S384x512 .f32) (x4 : Vec Ideal S1x512 .f32) (x5 : Vec Ideal S512x256 .f32) (x6 : Vec Ideal S1x256 .f32)
    (x7 : Vec Ideal S256x256 .f32) (x8 : Vec Ideal S1x256 .f32) (x9 : Vec Ideal S512x512 .f32) (x10 : Vec Ideal S1x512 .f32)
    (x11 : Vec Ideal S512x256 .f32) (x12 : Vec Ideal S1x256 .f32) (x13 : Vec Ideal S256x128 .f32) (x14 : Vec Ideal S1x128 .f32)
    (p : Fin 1024) (j : Fin 256) :
    out0_15 (F := Ideal) x0 x1 x2 x3 x4 x5 x6 x7 x8 x9 x10 x11 x12 x13 x14 (ix2 p j)
      = head (row x0 p) (row x2 p) (topRows 256 (by norm_num) x3) (rowsFrom 256 128 (by norm_num) x3) (row x4 0)
          (mat x5) (row x6 0) (mat x7) (row x8 0) j := by
  unfold out0_15
  rw [View.canon_unit_zero hz2]
  simp only [View.ld_unit_zero (S := S1024x256) hz2, View.ld_unit_zero (S := S1024x128) hz2,
    View.ld_unit_zero (S := S1x512) hz2, View.ld_unit_zero (S := S512x256) hz2, View.ld_unit_zero (S := S1x256) hz2,
    View.ld_unit_zero (S := S256x256) hz2]
  rw [pay4_apply]
  unfold head
  refine congrArg (fun h => last (hidden2 h (mat x5) (row x6 0)) (mat x7) (row x8 0) j) (funext fun k => ?_)
  refine (pay2_apply _ _ _ _ _ p k).trans ?_
  refine congrArg₂ (fun a b => hidden1 (row x0 p) (row x2 p) a b (row x4 0) k) (funext fun a => funext fun b => ?_)
    (funext fun a => funext fun b => ?_)
  · exact BlockLoad.ld_unit_ix2 x3 0 0 _ a b _ _ (Nat.zero_add _).symm (Nat.zero_add _).symm
  · exact BlockLoad.ld_unit_ix2 x3 256 0 _ a b _ _ rfl (Nat.zero_add _).symm

/-- Entry (p, j) of the second output block: the inverse head of row p of the state and next-state blocks. -/
theorem out16_apply (x0 : Vec Ideal S1024x256 .f32) (x1 : Vec Ideal S1024x256 .f32) (x2 : Vec Ideal S1024x128 .f32)
    (x3 : Vec Ideal S384x512 .f32) (x4 : Vec Ideal S1x512 .f32) (x5 : Vec Ideal S512x256 .f32) (x6 : Vec Ideal S1x256 .f32)
    (x7 : Vec Ideal S256x256 .f32) (x8 : Vec Ideal S1x256 .f32) (x9 : Vec Ideal S512x512 .f32) (x10 : Vec Ideal S1x512 .f32)
    (x11 : Vec Ideal S512x256 .f32) (x12 : Vec Ideal S1x256 .f32) (x13 : Vec Ideal S256x128 .f32) (x14 : Vec Ideal S1x128 .f32)
    (p : Fin 1024) (j : Fin 128) :
    out0_16 (F := Ideal) x0 x1 x2 x3 x4 x5 x6 x7 x8 x9 x10 x11 x12 x13 x14 (ix2 p j)
      = head (row x0 p) (row x1 p) (topRows 256 (by norm_num) x9) (rowsFrom 256 256 (by norm_num) x9) (row x10 0)
          (mat x11) (row x12 0) (mat x13) (row x14 0) j := by
  unfold out0_16
  rw [View.canon_unit_zero hz2]
  simp only [View.ld_unit_zero (S := S1024x256) hz2, View.ld_unit_zero (S := S1024x128) hz2,
    View.ld_unit_zero (S := S1x512) hz2, View.ld_unit_zero (S := S512x256) hz2, View.ld_unit_zero (S := S1x256) hz2,
    View.ld_unit_zero (S := S256x128) hz2, View.ld_unit_zero (S := S1x128) hz2]
  rw [pay5_apply]
  unfold head
  refine congrArg (fun h => last (hidden2 h (mat x11) (row x12 0)) (mat x13) (row x14 0) j) (funext fun k => ?_)
  refine (pay3_apply _ _ _ _ _ p k).trans ?_
  refine congrArg₂ (fun a b => hidden1 (row x0 p) (row x1 p) a b (row x10 0) k) (funext fun a => funext fun b => ?_)
    (funext fun a => funext fun b => ?_)
  · exact BlockLoad.ld_unit_ix2 x9 0 0 _ a b _ _ (Nat.zero_add _).symm (Nat.zero_add _).symm
  · exact BlockLoad.ld_unit_ix2 x9 256 0 _ a b _ _ rfl (Nat.zero_add _).symm

end Cert.KernelIdeal.Rows

end
-- ==== Proof.KernelArrays.lean ====
/-
  From the kernel's blocks to its two result arrays.

  The grid has eight points; point t works on rows 1024·t … 1024·t + 1023 of the state, next state and action, and on
  the whole of every weight and bias array. What it writes back to each output is therefore the block of rows
  1024·t … of one whole-array function of the argument arrays (the forward head and the inverse head, row by row), the
  eight blocks tile each output, and the arrays after the run are those two functions.
-/
import proofs.«118160_g2000603512130328_pallasbulk_154_24_alg».proof.Proof.Gen.KernelIdeal.Value
import proofs.«118160_g2000603512130328_pallasbulk_154_24_alg».proof.Proof.KernelRows

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.ValueIdx Cert.MlpHead Cert.IcmSpec
open Idealize.ShloMosaic.Pipeline (Dat)

variable (m : (ℓ : Loc nD τ sig) → Buf (Elt Ideal) ℓ) (ρ : Dev nD → PrngReg)

/-- The printed index maps, decided over the eight points: the row windows sit at block row t, every other window
    at block zero. -/
theorem idx_facts : ∀ t : Fin cfg0.N, win0_15.index t (0 : Fin 2) = t.val
    ∧ win0_15.index t (1 : Fin 2) = 0
    ∧ win0_16.index t (0 : Fin 2) = t.val
    ∧ win0_16.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0 :=
  (by decide +kernel : ∀ t : Fin grid0.N, _)

/-- Every block row is some point's. -/
theorem point_of_row : ∀ q : Fin 8, ∃ t : Fin cfg0.N, t.val = q.val :=
  (by decide +kernel : ∀ q : Fin 8, ∃ t : Fin grid0.N, t.val = q.val)

theorem point_lt (t : Fin cfg0.N) : t.val < 8 := by
  obtain ⟨q, hq⟩ := (by decide +kernel : ∀ t : Fin grid0.N, ∃ q : Fin 8, t.val = q.val) t
  have := q.isLt; omega

/-- The array row that row p of point t's block is. -/
def grow (t : Fin cfg0.N) (p : Fin 1024) : Fin 8192 :=
  ⟨t.val * 1024 + p.val, by have := point_lt t; have := p.isLt; omega⟩

/-! ## Where a block's entry sits in its array -/

theorem emb0 (t : Fin cfg0.N) (p : Fin 1024) (j : Fin 256) :
    ((cfg0.win 0).blk t).view.emb (ix2 p j) = ix2 (grow t p) j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_0.index t (0 : Fin 2) * 1024 + 1 * p.val = t.val * 1024 + p.val; omega
  | ⟨1, _⟩ => show win0_0.index t (1 : Fin 2) * 256 + 1 * j.val = j.val; omega

theorem emb1 (t : Fin cfg0.N) (p : Fin 1024) (j : Fin 256) :
    ((cfg0.win 1).blk t).view.emb (ix2 p j) = ix2 (grow t p) j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_1.index t (0 : Fin 2) * 1024 + 1 * p.val = t.val * 1024 + p.val; omega
  | ⟨1, _⟩ => show win0_1.index t (1 : Fin 2) * 256 + 1 * j.val = j.val; omega

theorem emb2 (t : Fin cfg0.N) (p : Fin 1024) (j : Fin 128) :
    ((cfg0.win 2).blk t).view.emb (ix2 p j) = ix2 (grow t p) j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_2.index t (0 : Fin 2) * 1024 + 1 * p.val = t.val * 1024 + p.val; omega
  | ⟨1, _⟩ => show win0_2.index t (1 : Fin 2) * 128 + 1 * j.val = j.val; omega

theorem emb15 (t : Fin cfg0.N) (p : Fin 1024) (j : Fin 256) :
    ((cfg0.win 15).blk t).view.emb (ix2 p j) = ix2 (grow t p) j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_15.index t (0 : Fin 2) * 1024 + 1 * p.val = t.val * 1024 + p.val; omega
  | ⟨1, _⟩ => show win0_15.index t (1 : Fin 2) * 256 + 1 * j.val = j.val; omega

theorem emb16 (t : Fin cfg0.N) (p : Fin 1024) (j : Fin 128) :
    ((cfg0.win 16).blk t).view.emb (ix2 p j) = ix2 (grow t p) j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_16.index t (0 : Fin 2) * 1024 + 1 * p.val = t.val * 1024 + p.val; omega
  | ⟨1, _⟩ => show win0_16.index t (1 : Fin 2) * 128 + 1 * j.val = j.val; omega

theorem emb3 (t : Fin cfg0.N) (k : Fin 384) (j : Fin 512) :
    ((cfg0.win 3).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_3.index t (0 : Fin 2) * 384 + 1 * k.val = k.val; omega
  | ⟨1, _⟩ => show win0_3.index t (1 : Fin 2) * 512 + 1 * j.val = j.val; omega

theorem emb4 (t : Fin cfg0.N) (k : Fin 1) (j : Fin 512) :
    ((cfg0.win 4).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_4.index t (0 : Fin 2) * 1 + 1 * k.val = k.val; omega
  | ⟨1, _⟩ => show win0_4.index t (1 : Fin 2) * 512 + 1 * j.val = j.val; omega

theorem emb5 (t : Fin cfg0.N) (k : Fin 512) (j : Fin 256) :
    ((cfg0.win 5).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_5.index t (0 : Fin 2) * 512 + 1 * k.val = k.val; omega
  | ⟨1, _⟩ => show win0_5.index t (1 : Fin 2) * 256 + 1 * j.val = j.val; omega

theorem emb6 (t : Fin cfg0.N) (k : Fin 1) (j : Fin 256) :
    ((cfg0.win 6).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_6.index t (0 : Fin 2) * 1 + 1 * k.val = k.val; omega
  | ⟨1, _⟩ => show win0_6.index t (1 : Fin 2) * 256 + 1 * j.val = j.val; omega

theorem emb7 (t : Fin cfg0.N) (k : Fin 256) (j : Fin 256) :
    ((cfg0.win 7).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_7.index t (0 : Fin 2) * 256 + 1 * k.val = k.val; omega
  | ⟨1, _⟩ => show win0_7.index t (1 : Fin 2) * 256 + 1 * j.val = j.val; omega

theorem emb8 (t : Fin cfg0.N) (k : Fin 1) (j : Fin 256) :
    ((cfg0.win 8).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_8.index t (0 : Fin 2) * 1 + 1 * k.val = k.val; omega
  | ⟨1, _⟩ => show win0_8.index t (1 : Fin 2) * 256 + 1 * j.val = j.val; omega

theorem emb9 (t : Fin cfg0.N) (k : Fin 512) (j : Fin 512) :
    ((cfg0.win 9).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_9.index t (0 : Fin 2) * 512 + 1 * k.val = k.val; omega
  | ⟨1, _⟩ => show win0_9.index t (1 : Fin 2) * 512 + 1 * j.val = j.val; omega

theorem emb10 (t : Fin cfg0.N) (k : Fin 1) (j : Fin 512) :
    ((cfg0.win 10).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_10.index t (0 : Fin 2) * 1 + 1 * k.val = k.val; omega
  | ⟨1, _⟩ => show win0_10.index t (1 : Fin 2) * 512 + 1 * j.val = j.val; omega

theorem emb11 (t : Fin cfg0.N) (k : Fin 512) (j : Fin 256) :
    ((cfg0.win 11).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_11.index t (0 : Fin 2) * 512 + 1 * k.val = k.val; omega
  | ⟨1, _⟩ => show win0_11.index t (1 : Fin 2) * 256 + 1 * j.val = j.val; omega

theorem emb12 (t : Fin cfg0.N) (k : Fin 1) (j : Fin 256) :
    ((cfg0.win 12).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_12.index t (0 : Fin 2) * 1 + 1 * k.val = k.val; omega
  | ⟨1, _⟩ => show win0_12.index t (1 : Fin 2) * 256 + 1 * j.val = j.val; omega

theorem emb13 (t : Fin cfg0.N) (k : Fin 256) (j : Fin 128) :
    ((cfg0.win 13).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_13.index t (0 : Fin 2) * 256 + 1 * k.val = k.val; omega
  | ⟨1, _⟩ => show win0_13.index t (1 : Fin 2) * 128 + 1 * j.val = j.val; omega

theorem emb14 (t : Fin cfg0.N) (k : Fin 1) (j : Fin 128) :
    ((cfg0.win 14).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_14.index t (0 : Fin 2) * 1 + 1 * k.val = k.val; omega
  | ⟨1, _⟩ => show win0_14.index t (1 : Fin 2) * 128 + 1 * j.val = j.val; omega

/-! ## The two outputs -/

/-- What point t writes back to output window 15 is block t of the whole-array function of the argument arrays. -/
theorem flushed15_eq (c : Dev nD) (t : Fin cfg0.N) :
    (dats m 0 c).flushed 15 t = ((cfg0.win 15).blk t).view.read (Elt Ideal) (nsPred (V m c main_arg0) (V m c main_arg2) (V m c main_arg3) (V m c main_arg4) (V m c main_arg5) (V m c main_arg6) (V m c main_arg7) (V m c main_arg8)) := by
  rw [Value.flushed15]
  funext y
  obtain ⟨p, j, rfl⟩ : ∃ (p : Fin 1024) (j : Fin 256), y = ix2 p j := ⟨y 0, y 1, eq_ix2 y⟩
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p j) = nsPred (V m c main_arg0) (V m c main_arg2) (V m c main_arg3) (V m c main_arg4) (V m c main_arg5) (V m c main_arg6) (V m c main_arg7) (V m c main_arg8) (((cfg0.win 15).blk t).view.emb (ix2 p j))
  rw [emb15 t p j]
  refine (Rows.out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p j).trans ?_
  have r1 : row (iblk m c 0 t) p = row (V m c main_arg0) (grow t p) :=
    funext fun k => congrArg (V m c main_arg0) (emb0 t p k)
  have r2 : row (iblk m c 2 t) p = row (V m c main_arg2) (grow t p) :=
    funext fun k => congrArg (V m c main_arg2) (emb2 t p k)
  have r3 : topRows 256 (by norm_num) (iblk m c 3 t) = topRows 256 (by norm_num) (V m c main_arg3) :=
    funext fun k => funext fun q => congrArg (V m c main_arg3) (emb3 t _ q)
  have r4 : rowsFrom 256 128 (by norm_num) (iblk m c 3 t) = rowsFrom 256 128 (by norm_num) (V m c main_arg3) :=
    funext fun k => funext fun q => congrArg (V m c main_arg3) (emb3 t _ q)
  have r5 : row (iblk m c 4 t) 0 = row (V m c main_arg4) 0 :=
    funext fun q => congrArg (V m c main_arg4) (emb4 t 0 q)
  have r6 : mat (iblk m c 5 t) = mat (V m c main_arg5) :=
    funext fun k => funext fun q => congrArg (V m c main_arg5) (emb5 t k q)
  have r7 : row (iblk m c 6 t) 0 = row (V m c main_arg6) 0 :=
    funext fun q => congrArg (V m c main_arg6) (emb6 t 0 q)
  have r8 : mat (iblk m c 7 t) = mat (V m c main_arg7) :=
    funext fun k => funext fun q => congrArg (V m c main_arg7) (emb7 t k q)
  have r9 : row (iblk m c 8 t) 0 = row (V m c main_arg8) 0 :=
    funext fun q => congrArg (V m c main_arg8) (emb8 t 0 q)
  rw [r1, r2, r3, r4, r5, r6, r7, r8, r9]
  rfl

/-- An index of the array is in point t's block iff each coordinate is in the block's range on its axis. -/
theorem mem_blk15 (t : Fin cfg0.N) (i : S8192x256.Idx) :
    i ∈ ((cfg0.win 15).blk t).view.set ↔ ∀ a : Fin 2, win0_15.index t a * S1024x256.size a ≤ (i a).val
      ∧ (i a).val < win0_15.index t a * S1024x256.size a + S1024x256.size a := by
  show i ∈ ((View.whole main_v0_0).slice (win0_15.rect t)).set ↔ _
  rw [View.set_slice_whole, Rect.mem_set_unit]
  exact Iff.rfl

/-- Every index of the array lies in the block of the point its row falls in. -/
theorem cover15 (i : S8192x256.Idx) :
    ∃ t : Fin cfg0.N, (cfg0.win 15).flush t = true ∧ i ∈ ((cfg0.win 15).blk t).view.set := by
  have hi0 : (i 0).val < 8192 := (i 0).isLt
  have hi1 : (i 1).val < 256 := (i 1).isLt
  obtain ⟨t, ht⟩ := point_of_row ⟨(i 0).val / 1024, by omega⟩
  have ht' : t.val = (i 0).val / 1024 := ht
  obtain ⟨f0, f1, f2, f3, f4, f5, f6, f7, f8, f9, f10, f11, f12, f13, f14, f15, f16, f17, f18, f19, f20, f21, f22, f23, f24, f25, f26, f27, f28, f29, f30, f31, f32, f33⟩ := idx_facts t
  refine ⟨t, flush0_15 t, ?_⟩
  rw [mem_blk15]
  intro a
  match a with
  | ⟨0, _⟩ =>
    show win0_15.index t (0 : Fin 2) * 1024 ≤ (i 0).val ∧ (i 0).val < win0_15.index t (0 : Fin 2) * 1024 + 1024
    omega
  | ⟨1, _⟩ =>
    show win0_15.index t (1 : Fin 2) * 256 ≤ (i 1).val ∧ (i 1).val < win0_15.index t (1 : Fin 2) * 256 + 256
    omega

/-- The array after the run is the whole-array function of the argument arrays. -/
theorem final15 (c : Dev nD) : (dats m 0 c).arrAt 15 cfg0.N = nsPred (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 15 (nsPred (V m c main_arg0) (V m c main_arg2) (V m c main_arg3) (V m c main_arg4) (V m c main_arg5) (V m c main_arg6) (V m c main_arg7) (V m c main_arg8)) (fun t _ => flushed15_eq m c t) cover15

/-- What point t writes back to output window 16 is block t of the whole-array function of the argument arrays. -/
theorem flushed16_eq (c : Dev nD) (t : Fin cfg0.N) :
    (dats m 0 c).flushed 16 t = ((cfg0.win 16).blk t).view.read (Elt Ideal) (actPred (V m c main_arg0) (V m c main_arg1) (V m c main_arg9) (V m c main_arg10) (V m c main_arg11) (V m c main_arg12) (V m c main_arg13) (V m c main_arg14)) := by
  rw [Value.flushed16]
  funext y
  obtain ⟨p, j, rfl⟩ : ∃ (p : Fin 1024) (j : Fin 128), y = ix2 p j := ⟨y 0, y 1, eq_ix2 y⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p j) = actPred (V m c main_arg0) (V m c main_arg1) (V m c main_arg9) (V m c main_arg10) (V m c main_arg11) (V m c main_arg12) (V m c main_arg13) (V m c main_arg14) (((cfg0.win 16).blk t).view.emb (ix2 p j))
  rw [emb16 t p j]
  refine (Rows.out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p j).trans ?_
  have r1 : row (iblk m c 0 t) p = row (V m c main_arg0) (grow t p) :=
    funext fun k => congrArg (V m c main_arg0) (emb0 t p k)
  have r2 : row (iblk m c 1 t) p = row (V m c main_arg1) (grow t p) :=
    funext fun k => congrArg (V m c main_arg1) (emb1 t p k)
  have r3 : topRows 256 (by norm_num) (iblk m c 9 t) = topRows 256 (by norm_num) (V m c main_arg9) :=
    funext fun k => funext fun q => congrArg (V m c main_arg9) (emb9 t _ q)
  have r4 : rowsFrom 256 256 (by norm_num) (iblk m c 9 t) = rowsFrom 256 256 (by norm_num) (V m c main_arg9) :=
    funext fun k => funext fun q => congrArg (V m c main_arg9) (emb9 t _ q)
  have r5 : row (iblk m c 10 t) 0 = row (V m c main_arg10) 0 :=
    funext fun q => congrArg (V m c main_arg10) (emb10 t 0 q)
  have r6 : mat (iblk m c 11 t) = mat (V m c main_arg11) :=
    funext fun k => funext fun q => congrArg (V m c main_arg11) (emb11 t k q)
  have r7 : row (iblk m c 12 t) 0 = row (V m c main_arg12) 0 :=
    funext fun q => congrArg (V m c main_arg12) (emb12 t 0 q)
  have r8 : mat (iblk m c 13 t) = mat (V m c main_arg13) :=
    funext fun k => funext fun q => congrArg (V m c main_arg13) (emb13 t k q)
  have r9 : row (iblk m c 14 t) 0 = row (V m c main_arg14) 0 :=
    funext fun q => congrArg (V m c main_arg14) (emb14 t 0 q)
  rw [r1, r2, r3, r4, r5, r6, r7, r8, r9]
  rfl

/-- An index of the array is in point t's block iff each coordinate is in the block's range on its axis. -/
theorem mem_blk16 (t : Fin cfg0.N) (i : S8192x128.Idx) :
    i ∈ ((cfg0.win 16).blk t).view.set ↔ ∀ a : Fin 2, win0_16.index t a * S1024x128.size a ≤ (i a).val
      ∧ (i a).val < win0_16.index t a * S1024x128.size a + S1024x128.size a := by
  show i ∈ ((View.whole main_v0_1).slice (win0_16.rect t)).set ↔ _
  rw [View.set_slice_whole, Rect.mem_set_unit]
  exact Iff.rfl

/-- Every index of the array lies in the block of the point its row falls in. -/
theorem cover16 (i : S8192x128.Idx) :
    ∃ t : Fin cfg0.N, (cfg0.win 16).flush t = true ∧ i ∈ ((cfg0.win 16).blk t).view.set := by
  have hi0 : (i 0).val < 8192 := (i 0).isLt
  have hi1 : (i 1).val < 128 := (i 1).isLt
  obtain ⟨t, ht⟩ := point_of_row ⟨(i 0).val / 1024, by omega⟩
  have ht' : t.val = (i 0).val / 1024 := ht
  obtain ⟨f0, f1, f2, f3, f4, f5, f6, f7, f8, f9, f10, f11, f12, f13, f14, f15, f16, f17, f18, f19, f20, f21, f22, f23, f24, f25, f26, f27, f28, f29, f30, f31, f32, f33⟩ := idx_facts t
  refine ⟨t, flush0_16 t, ?_⟩
  rw [mem_blk16]
  intro a
  match a with
  | ⟨0, _⟩ =>
    show win0_16.index t (0 : Fin 2) * 1024 ≤ (i 0).val ∧ (i 0).val < win0_16.index t (0 : Fin 2) * 1024 + 1024
    omega
  | ⟨1, _⟩ =>
    show win0_16.index t (1 : Fin 2) * 128 ≤ (i 1).val ∧ (i 1).val < win0_16.index t (1 : Fin 2) * 128 + 128
    omega

/-- The array after the run is the whole-array function of the argument arrays. -/
theorem final16 (c : Dev nD) : (dats m 0 c).arrAt 16 cfg0.N = actPred (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 16 (actPred (V m c main_arg0) (V m c main_arg1) (V m c main_arg9) (V m c main_arg10) (V m c main_arg11) (V m c main_arg12) (V m c main_arg13) (V m c main_arg14)) (fun t _ => flushed16_eq m c t) cover16

/-! ## The run -/

/-- Every weakly fair execution of the kernel program ends with its two results at the two whole-array functions of
    the arguments, the arguments unchanged. -/
theorem run : θ_run defs (onTc (τ := τ) (main (F := Ideal))) ⟨m, fun _ => 0, ρ⟩ fun r => ∀ c : Dev nD,
      r.2.mem ((c : Thread nD τ).loc main_v0_0) = nsPred (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_1) = actPred (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Value.run_blocks m ρ)

end Cert.KernelIdeal.Arrays

end
-- ==== Proof.ReferenceRows.lean ====
/-
  What the reference's body leaves in its one output block, one entry at a time, over the extended reals.

  The block is 384 columns wide and holds both heads: entry (p, c) is the sum over the forward head's second hidden
  layer of row p times the padded forward last weights' column c, plus the same sum for the inverse head with the
  padded inverse last weights, plus the packed bias at c. The hidden layers are the same functions of the row as the
  kernel's; the first layer's weights come in already cut in two.
-/
import proofs.«118160_g2000603512130328_pallasbulk_154_24_alg».proof.Proof.Gen.ReferenceIdeal.Frame
import proofs.«118160_g2000603512130328_pallasbulk_154_24_alg».proof.Proof.LibPlainLayers
import proofs.«118160_g2000603512130328_pallasbulk_154_24_alg».proof.Proof.IcmSpec

set_option maxRecDepth 16384

noncomputable section

open scoped BigOperators

namespace Cert.ReferenceIdeal.Rows

open Cert.ReferenceIdeal Cert.ReferenceIdeal.Gen Idealize.ShloMosaic Idealize.ShloMosaic.ValueIdx Cert.MlpHead Cert.IcmSpec

/-- A plain product whose right operand went through a cast to its own shape, into a zero accumulator, at (p, j). -/
theorem mmc {M K N : ℕ} (D : DotDims ⟨2, ![M, K]⟩ ⟨2, ![K, N]⟩ ⟨2, ![M, N]⟩) (hD : D = DotDims.plain M K N)
    (h : FVec Ideal ⟨2, ![M, K]⟩ .f32) (w : FVec Ideal ⟨2, ![K, N]⟩ .f32)
    (hc : (⟨2, ![K, N]⟩ : Shape).ShapeCasts ⟨2, ![K, N]⟩) (p : Fin M) (j : Fin N) :
    matmul D none h (shapeCast ⟨2, ![K, N]⟩ w hc) (constant ⟨2, ![M, N]⟩ .f32 0x00000000#32) (ix2 p j)
      = ∑ k : Fin K, h (ix2 p k) * w (ix2 k j) := by
  rw [shapeCast_self]; exact PlainLayers.plainMM_of_eq D hD none h w p j

theorem hz2 : (![0, 0] : Fin 2 → ℕ) = fun _ => 0 := by funext a; fin_cases a <;> rfl

/-- Entry (p, c) of the output block. -/
theorem out16_apply (x0 : Vec Ideal S512x256 .f32) (x1 : Vec Ideal S512x256 .f32) (x2 : Vec Ideal S512x128 .f32) (x3 : Vec Ideal S256x512 .f32) (x4 : Vec Ideal S128x512 .f32) (x5 : Vec Ideal S1x512 .f32) (x6 : Vec Ideal S512x256 .f32) (x7 : Vec Ideal S1x256 .f32) (x8 : Vec Ideal S256x384 .f32) (x9 : Vec Ideal S256x512 .f32) (x10 : Vec Ideal S256x512 .f32) (x11 : Vec Ideal S1x512 .f32) (x12 : Vec Ideal S512x256 .f32) (x13 : Vec Ideal S1x256 .f32) (x14 : Vec Ideal S256x384 .f32) (x15 : Vec Ideal S1x384 .f32)
    (p : Fin 512) (c : Fin 384) :
    out0_16 (F := Ideal) x0 x1 x2 x3 x4 x5 x6 x7 x8 x9 x10 x11 x12 x13 x14 x15 (ix2 p c)
      = wide (row x0 p) (row x2 p) (row x1 p) (mat x3) (mat x4) (row x5 0) (mat x6) (row x7 0) (mat x8)
          (mat x9) (mat x10) (row x11 0) (mat x12) (row x13 0) (mat x14) (row x15 0) c := by
  unfold out0_16 wide
  rw [View.canon_unit_zero hz2]
  simp only [View.ld_unit_zero (S := S512x256) hz2, View.ld_unit_zero (S := S512x128) hz2,
    View.ld_unit_zero (S := S256x512) hz2, View.ld_unit_zero (S := S128x512) hz2, View.ld_unit_zero (S := S1x512) hz2,
    View.ld_unit_zero (S := S1x256) hz2, View.ld_unit_zero (S := S256x384) hz2, View.ld_unit_zero (S := S1x384) hz2]
  unfold k0_pay1 k0_pay2 k0_pay3 k0_pay4
  refine congrArg₂ (· + ·) (congrArg₂ (· + ·) ?_ ?_) ?_
  · refine (mmc _ rfl _ _ _ p c).trans (Finset.sum_congr rfl fun k _ => congrArg (· * _) ?_)
    refine congrArg₂ max (congrArg₂ (· + ·) ((PlainLayers.plainMM_of_eq _ rfl none _ _ p k).trans
      (Finset.sum_congr rfl fun l _ => congrArg (· * _) ?_)) (broadcastTo_1b_ab_apply _ _ p k)) Ideal.ofBits_zero_f32
    exact congrArg₂ max (congrArg₂ (· + ·) (congrArg₂ (· + ·) (mmc _ rfl _ _ _ p l) (mmc _ rfl _ _ _ p l))
      (broadcastTo_1b_ab_apply _ _ p l)) Ideal.ofBits_zero_f32
  · refine (mmc _ rfl _ _ _ p c).trans (Finset.sum_congr rfl fun k _ => congrArg (· * _) ?_)
    refine congrArg₂ max (congrArg₂ (· + ·) ((PlainLayers.plainMM_of_eq _ rfl none _ _ p k).trans
      (Finset.sum_congr rfl fun l _ => congrArg (· * _) ?_)) (broadcastTo_1b_ab_apply _ _ p k)) Ideal.ofBits_zero_f32
    exact congrArg₂ max (congrArg₂ (· + ·) (congrArg₂ (· + ·) (mmc _ rfl _ _ _ p l) (mmc _ rfl _ _ _ p l))
      (broadcastTo_1b_ab_apply _ _ p l)) Ideal.ofBits_zero_f32
  · exact (broadcastTo_1b_ab_apply _ _ p c).trans (congrFun (shapeCast_self x15 _) _)

end Cert.ReferenceIdeal.Rows

end
-- ==== Proof.ReferenceArrays.lean ====
/-
  From the reference's blocks to its one output array, 8192 rows by 384 columns.

  The grid has sixteen points; point t works on rows 512·t … 512·t + 511 of the state, next state and action and on the
  whole of every other array. What it writes back is the block of rows 512·t … of one whole-array function of the
  arrays its kernel is handed; the sixteen blocks tile the output.
-/
import proofs.«118160_g2000603512130328_pallasbulk_154_24_alg».proof.Proof.ReferenceRows

set_option maxRecDepth 16384

noncomputable section

open scoped BigOperators

namespace Cert.ReferenceIdeal.Arrays

open Cert.ReferenceIdeal Cert.ReferenceIdeal.Gen Idealize.ShloMosaic Idealize.ShloMosaic.TcCoe Idealize.SL.Sem
open Idealize.ShloMosaic.ValueIdx Cert.MlpHead Cert.IcmSpec
open Idealize.ShloMosaic.Pipeline (Dat)

/-- The wide output as one function of the sixteen arrays the kernel is handed: at (r, c) the forward head's second
    hidden layer of row r through column c of the padded forward weights, plus the inverse head's through column c of
    the padded inverse weights, plus the packed bias at c. -/
def slab (a0 a1 : (⟨2, ![8192, 256]⟩ : Shape).Idx → EReal) (a2 : (⟨2, ![8192, 128]⟩ : Shape).Idx → EReal) (v0 : (⟨2, ![256, 512]⟩ : Shape).Idx → EReal) (v1 : (⟨2, ![128, 512]⟩ : Shape).Idx → EReal)
    (b1p : (⟨2, ![1, 512]⟩ : Shape).Idx → EReal) (w2p : (⟨2, ![512, 256]⟩ : Shape).Idx → EReal) (b2p : (⟨2, ![1, 256]⟩ : Shape).Idx → EReal) (v6 : (⟨2, ![256, 384]⟩ : Shape).Idx → EReal)
    (v2 v3 : (⟨2, ![256, 512]⟩ : Shape).Idx → EReal) (b1i : (⟨2, ![1, 512]⟩ : Shape).Idx → EReal) (w2i : (⟨2, ![512, 256]⟩ : Shape).Idx → EReal) (b2i : (⟨2, ![1, 256]⟩ : Shape).Idx → EReal)
    (v9 : (⟨2, ![256, 384]⟩ : Shape).Idx → EReal) (v14 : (⟨2, ![1, 384]⟩ : Shape).Idx → EReal) : (⟨2, ![8192, 384]⟩ : Shape).Idx → EReal :=
  fun i => wide (row a0 (i 0)) (row a2 (i 0)) (row a1 (i 0)) (mat v0) (mat v1) (row b1p 0) (mat w2p) (row b2p 0) (mat v6)
    (mat v2) (mat v3) (row b1i 0) (mat w2i) (row b2i 0) (mat v9) (row v14 0) (i 1)

variable (m : (ℓ : Loc nD τ sig) → Buf (Elt Ideal) ℓ) (ρ : Dev nD → PrngReg)

/-- The printed index maps, decided over the sixteen points: the row windows sit at block row t, every other window
    at block zero. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_16.index t (0 : Fin 2) = t.val
    ∧ win0_16.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0 :=
  (by decide +kernel : ∀ t : Fin grid0.N, _)

/-- Every block row is some point's. -/
theorem point_of_row : ∀ q : Fin 16, ∃ t : Fin cfg0.N, t.val = q.val :=
  (by decide +kernel : ∀ q : Fin 16, ∃ t : Fin grid0.N, t.val = q.val)

theorem point_lt (t : Fin cfg0.N) : t.val < 16 := by
  obtain ⟨q, hq⟩ := (by decide +kernel : ∀ t : Fin grid0.N, ∃ q : Fin 16, t.val = q.val) t
  have := q.isLt; omega

/-- The array row that row p of point t's block is. -/
def grow (t : Fin cfg0.N) (p : Fin 512) : Fin 8192 :=
  ⟨t.val * 512 + p.val, by have := point_lt t; have := p.isLt; omega⟩

/-! ## Where a block's entry sits in its array -/

theorem emb0 (t : Fin cfg0.N) (p : Fin 512) (j : Fin 256) :
    ((cfg0.win 0).blk t).view.emb (ix2 p j) = ix2 (grow t p) j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_0.index t (0 : Fin 2) * 512 + 1 * p.val = t.val * 512 + p.val; omega
  | ⟨1, _⟩ => show win0_0.index t (1 : Fin 2) * 256 + 1 * j.val = j.val; omega

theorem emb1 (t : Fin cfg0.N) (p : Fin 512) (j : Fin 256) :
    ((cfg0.win 1).blk t).view.emb (ix2 p j) = ix2 (grow t p) j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_1.index t (0 : Fin 2) * 512 + 1 * p.val = t.val * 512 + p.val; omega
  | ⟨1, _⟩ => show win0_1.index t (1 : Fin 2) * 256 + 1 * j.val = j.val; omega

theorem emb2 (t : Fin cfg0.N) (p : Fin 512) (j : Fin 128) :
    ((cfg0.win 2).blk t).view.emb (ix2 p j) = ix2 (grow t p) j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_2.index t (0 : Fin 2) * 512 + 1 * p.val = t.val * 512 + p.val; omega
  | ⟨1, _⟩ => show win0_2.index t (1 : Fin 2) * 128 + 1 * j.val = j.val; omega

theorem emb16 (t : Fin cfg0.N) (p : Fin 512) (j : Fin 384) :
    ((cfg0.win 16).blk t).view.emb (ix2 p j) = ix2 (grow t p) j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_16.index t (0 : Fin 2) * 512 + 1 * p.val = t.val * 512 + p.val; omega
  | ⟨1, _⟩ => show win0_16.index t (1 : Fin 2) * 384 + 1 * j.val = j.val; omega

theorem emb3 (t : Fin cfg0.N) (k : Fin 256) (j : Fin 512) :
    ((cfg0.win 3).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_3.index t (0 : Fin 2) * 256 + 1 * k.val = k.val; omega
  | ⟨1, _⟩ => show win0_3.index t (1 : Fin 2) * 512 + 1 * j.val = j.val; omega

theorem emb4 (t : Fin cfg0.N) (k : Fin 128) (j : Fin 512) :
    ((cfg0.win 4).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_4.index t (0 : Fin 2) * 128 + 1 * k.val = k.val; omega
  | ⟨1, _⟩ => show win0_4.index t (1 : Fin 2) * 512 + 1 * j.val = j.val; omega

theorem emb5 (t : Fin cfg0.N) (k : Fin 1) (j : Fin 512) :
    ((cfg0.win 5).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_5.index t (0 : Fin 2) * 1 + 1 * k.val = k.val; omega
  | ⟨1, _⟩ => show win0_5.index t (1 : Fin 2) * 512 + 1 * j.val = j.val; omega

theorem emb6 (t : Fin cfg0.N) (k : Fin 512) (j : Fin 256) :
    ((cfg0.win 6).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_6.index t (0 : Fin 2) * 512 + 1 * k.val = k.val; omega
  | ⟨1, _⟩ => show win0_6.index t (1 : Fin 2) * 256 + 1 * j.val = j.val; omega

theorem emb7 (t : Fin cfg0.N) (k : Fin 1) (j : Fin 256) :
    ((cfg0.win 7).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_7.index t (0 : Fin 2) * 1 + 1 * k.val = k.val; omega
  | ⟨1, _⟩ => show win0_7.index t (1 : Fin 2) * 256 + 1 * j.val = j.val; omega

theorem emb8 (t : Fin cfg0.N) (k : Fin 256) (j : Fin 384) :
    ((cfg0.win 8).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_8.index t (0 : Fin 2) * 256 + 1 * k.val = k.val; omega
  | ⟨1, _⟩ => show win0_8.index t (1 : Fin 2) * 384 + 1 * j.val = j.val; omega

theorem emb9 (t : Fin cfg0.N) (k : Fin 256) (j : Fin 512) :
    ((cfg0.win 9).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_9.index t (0 : Fin 2) * 256 + 1 * k.val = k.val; omega
  | ⟨1, _⟩ => show win0_9.index t (1 : Fin 2) * 512 + 1 * j.val = j.val; omega

theorem emb10 (t : Fin cfg0.N) (k : Fin 256) (j : Fin 512) :
    ((cfg0.win 10).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_10.index t (0 : Fin 2) * 256 + 1 * k.val = k.val; omega
  | ⟨1, _⟩ => show win0_10.index t (1 : Fin 2) * 512 + 1 * j.val = j.val; omega

theorem emb11 (t : Fin cfg0.N) (k : Fin 1) (j : Fin 512) :
    ((cfg0.win 11).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_11.index t (0 : Fin 2) * 1 + 1 * k.val = k.val; omega
  | ⟨1, _⟩ => show win0_11.index t (1 : Fin 2) * 512 + 1 * j.val = j.val; omega

theorem emb12 (t : Fin cfg0.N) (k : Fin 512) (j : Fin 256) :
    ((cfg0.win 12).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_12.index t (0 : Fin 2) * 512 + 1 * k.val = k.val; omega
  | ⟨1, _⟩ => show win0_12.index t (1 : Fin 2) * 256 + 1 * j.val = j.val; omega

theorem emb13 (t : Fin cfg0.N) (k : Fin 1) (j : Fin 256) :
    ((cfg0.win 13).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_13.index t (0 : Fin 2) * 1 + 1 * k.val = k.val; omega
  | ⟨1, _⟩ => show win0_13.index t (1 : Fin 2) * 256 + 1 * j.val = j.val; omega

theorem emb14 (t : Fin cfg0.N) (k : Fin 256) (j : Fin 384) :
    ((cfg0.win 14).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_14.index t (0 : Fin 2) * 256 + 1 * k.val = k.val; omega
  | ⟨1, _⟩ => show win0_14.index t (1 : Fin 2) * 384 + 1 * j.val = j.val; omega

theorem emb15 (t : Fin cfg0.N) (k : Fin 1) (j : Fin 384) :
    ((cfg0.win 15).blk t).view.emb (ix2 k j) = ix2 k j := by
  obtain ⟨f0, f1, f2, f3, f4, f5, f6, f7, f8, f9, f10, f11, f12, f13, f14, f15, f16, f17, f18, f19, f20, f21, f22, f23, f24, f25, f26, f27, f28, f29, f30, f31, f32, f33⟩ := idx_facts t
  funext a; apply Fin.ext
  match a with
  | ⟨0, _⟩ => show win0_15.index t (0 : Fin 2) * 1 + 1 * k.val = k.val; omega
  | ⟨1, _⟩ => show win0_15.index t (1 : Fin 2) * 384 + 1 * j.val = j.val; omega

/-! ## The output -/

/-- The body's result on the blocks of ANY sixteen arrays at point t, at (p, j): the wide function of those arrays at
    (512·t + p, j). -/
theorem block16 (t : Fin cfg0.N) (A0 : (⟨2, ![8192, 256]⟩ : Shape).Idx → EReal) (A1 : (⟨2, ![8192, 256]⟩ : Shape).Idx → EReal) (A2 : (⟨2, ![8192, 128]⟩ : Shape).Idx → EReal) (A3 : (⟨2, ![256, 512]⟩ : Shape).Idx → EReal) (A4 : (⟨2, ![128, 512]⟩ : Shape).Idx → EReal) (A5 : (⟨2, ![1, 512]⟩ : Shape).Idx → EReal) (A6 : (⟨2, ![512, 256]⟩ : Shape).Idx → EReal) (A7 : (⟨2, ![1, 256]⟩ : Shape).Idx → EReal) (A8 : (⟨2, ![256, 384]⟩ : Shape).Idx → EReal) (A9 : (⟨2, ![256, 512]⟩ : Shape).Idx → EReal) (A10 : (⟨2, ![256, 512]⟩ : Shape).Idx → EReal) (A11 : (⟨2, ![1, 512]⟩ : Shape).Idx → EReal) (A12 : (⟨2, ![512, 256]⟩ : Shape).Idx → EReal) (A13 : (⟨2, ![1, 256]⟩ : Shape).Idx → EReal) (A14 : (⟨2, ![256, 384]⟩ : Shape).Idx → EReal) (A15 : (⟨2, ![1, 384]⟩ : Shape).Idx → EReal)
    (p : Fin 512) (j : Fin 384) :
    out0_16 (F := Ideal)
        (((cfg0.win 0).blk t).view.read (Elt Ideal) A0)
        (((cfg0.win 1).blk t).view.read (Elt Ideal) A1)
        (((cfg0.win 2).blk t).view.read (Elt Ideal) A2)
        (((cfg0.win 3).blk t).view.read (Elt Ideal) A3)
        (((cfg0.win 4).blk t).view.read (Elt Ideal) A4)
        (((cfg0.win 5).blk t).view.read (Elt Ideal) A5)
        (((cfg0.win 6).blk t).view.read (Elt Ideal) A6)
        (((cfg0.win 7).blk t).view.read (Elt Ideal) A7)
        (((cfg0.win 8).blk t).view.read (Elt Ideal) A8)
        (((cfg0.win 9).blk t).view.read (Elt Ideal) A9)
        (((cfg0.win 10).blk t).view.read (Elt Ideal) A10)
        (((cfg0.win 11).blk t).view.read (Elt Ideal) A11)
        (((cfg0.win 12).blk t).view.read (Elt Ideal) A12)
        (((cfg0.win 13).blk t).view.read (Elt Ideal) A13)
        (((cfg0.win 14).blk t).view.read (Elt Ideal) A14)
        (((cfg0.win 15).blk t).view.read (Elt Ideal) A15)
        (ix2 p j)
      = slab A0 A1 A2 A3 A4 A5 A6 A7 A8 A9 A10 A11 A12 A13 A14 A15 (ix2 (grow t p) j) := by
  refine (Rows.out16_apply _ _ _ _ _ _ _ _ _ _ _ _ _ _ _ _ p j).trans ?_
  have r0 : row (((cfg0.win 0).blk t).view.read (Elt Ideal) A0) p = row A0 (grow t p) :=
    funext fun k => congrArg A0 (emb0 t p k)
  have r1 : row (((cfg0.win 1).blk t).view.read (Elt Ideal) A1) p = row A1 (grow t p) :=
    funext fun k => congrArg A1 (emb1 t p k)
  have r2 : row (((cfg0.win 2).blk t).view.read (Elt Ideal) A2) p = row A2 (grow t p) :=
    funext fun k => congrArg A2 (emb2 t p k)
  have r3 : mat (((cfg0.win 3).blk t).view.read (Elt Ideal) A3) = mat A3 :=
    funext fun k => funext fun q => congrArg A3 (emb3 t k q)
  have r4 : mat (((cfg0.win 4).blk t).view.read (Elt Ideal) A4) = mat A4 :=
    funext fun k => funext fun q => congrArg A4 (emb4 t k q)
  have r6 : mat (((cfg0.win 6).blk t).view.read (Elt Ideal) A6) = mat A6 :=
    funext fun k => funext fun q => congrArg A6 (emb6 t k q)
  have r8 : mat (((cfg0.win 8).blk t).view.read (Elt Ideal) A8) = mat A8 :=
    funext fun k => funext fun q => congrArg A8 (emb8 t k q)
  have r9 : mat (((cfg0.win 9).blk t).view.read (Elt Ideal) A9) = mat A9 :=
    funext fun k => funext fun q => congrArg A9 (emb9 t k q)
  have r10 : mat (((cfg0.win 10).blk t).view.read (Elt Ideal) A10) = mat A10 :=
    funext fun k => funext fun q => congrArg A10 (emb10 t k q)
  have r12 : mat (((cfg0.win 12).blk t).view.read (Elt Ideal) A12) = mat A12 :=
    funext fun k => funext fun q => congrArg A12 (emb12 t k q)
  have r14 : mat (((cfg0.win 14).blk t).view.read (Elt Ideal) A14) = mat A14 :=
    funext fun k => funext fun q => congrArg A14 (emb14 t k q)
  have r5 : row (((cfg0.win 5).blk t).view.read (Elt Ideal) A5) 0 = row A5 0 :=
    funext fun q => congrArg A5 (emb5 t 0 q)
  have r7 : row (((cfg0.win 7).blk t).view.read (Elt Ideal) A7) 0 = row A7 0 :=
    funext fun q => congrArg A7 (emb7 t 0 q)
  have r11 : row (((cfg0.win 11).blk t).view.read (Elt Ideal) A11) 0 = row A11 0 :=
    funext fun q => congrArg A11 (emb11 t 0 q)
  have r13 : row (((cfg0.win 13).blk t).view.read (Elt Ideal) A13) 0 = row A13 0 :=
    funext fun q => congrArg A13 (emb13 t 0 q)
  have r15 : row (((cfg0.win 15).blk t).view.read (Elt Ideal) A15) 0 = row A15 0 :=
    funext fun q => congrArg A15 (emb15 t 0 q)
  rw [r0, r1, r2, r3, r4, r5, r6, r7, r8, r9, r10, r11, r12, r13, r14, r15]
  rfl

set_option maxHeartbeats 1000000 in
/-- What point t writes back is block t of the wide function of the arrays as the region finds them. -/
theorem flushed16_eq (c : Dev nD) (t : Fin cfg0.N) :
    (dats m 0 c).flushed 16 t = ((cfg0.win 16).blk t).view.read (Elt Ideal) (slab (V m c main_arg0) (V m c main_arg1) (V m c main_arg2) (V m c main_v0) (V m c main_v1) (V m c main_arg4) (V m c main_arg5) (V m c main_arg6) (V m c main_v6) (V m c main_v2) (V m c main_v3) (V m c main_arg10) (V m c main_arg11) (V m c main_arg12) (V m c main_v9) (V m c main_v14)) := by
  show (cfg0.win 16).cut (grid0.coords t) ((dats m 0 c).after 16 t) = _
  rw [after0_16]
  funext y
  obtain ⟨p, j, rfl⟩ : ∃ (p : Fin 512) (j : Fin 384), y = ix2 p j := ⟨y 0, y 1, eq_ix2 y⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p j) = slab (V m c main_arg0) (V m c main_arg1) (V m c main_arg2) (V m c main_v0) (V m c main_v1) (V m c main_arg4) (V m c main_arg5) (V m c main_arg6) (V m c main_v6) (V m c main_v2) (V m c main_v3) (V m c main_arg10) (V m c main_arg11) (V m c main_arg12) (V m c main_v9) (V m c main_v14) (((cfg0.win 16).blk t).view.emb (ix2 p j))
  rw [emb16 t p j]
  exact block16 t (V m c main_arg0) (V m c main_arg1) (V m c main_arg2) (V m c main_v0) (V m c main_v1) (V m c main_arg4) (V m c main_arg5) (V m c main_arg6) (V m c main_v6) (V m c main_v2) (V m c main_v3) (V m c main_arg10) (V m c main_arg11) (V m c main_arg12) (V m c main_v9) (V m c main_v14) p j

/-- An index of the array is in point t's block iff each coordinate is in the block's range on its axis. -/
theorem mem_blk16 (t : Fin cfg0.N) (i : S8192x384.Idx) :
    i ∈ ((cfg0.win 16).blk t).view.set ↔ ∀ a : Fin 2, win0_16.index t a * S512x384.size a ≤ (i a).val
      ∧ (i a).val < win0_16.index t a * S512x384.size a + S512x384.size a := by
  show i ∈ ((View.whole main_v15).slice (win0_16.rect t)).set ↔ _
  rw [View.set_slice_whole, Rect.mem_set_unit]
  exact Iff.rfl

/-- Every index of the array lies in the block of the point its row falls in. -/
theorem cover16 (i : S8192x384.Idx) :
    ∃ t : Fin cfg0.N, (cfg0.win 16).flush t = true ∧ i ∈ ((cfg0.win 16).blk t).view.set := by
  have hi0 : (i 0).val < 8192 := (i 0).isLt
  have hi1 : (i 1).val < 384 := (i 1).isLt
  obtain ⟨t, ht⟩ := point_of_row ⟨(i 0).val / 512, by omega⟩
  have ht' : t.val = (i 0).val / 512 := ht
  obtain ⟨f0, f1, f2, f3, f4, f5, f6, f7, f8, f9, f10, f11, f12, f13, f14, f15, f16, f17, f18, f19, f20, f21, f22, f23, f24, f25, f26, f27, f28, f29, f30, f31, f32, f33⟩ := idx_facts t
  refine ⟨t, flush0_16 t, ?_⟩
  rw [mem_blk16]
  intro a
  match a with
  | ⟨0, _⟩ =>
    show win0_16.index t (0 : Fin 2) * 512 ≤ (i 0).val ∧ (i 0).val < win0_16.index t (0 : Fin 2) * 512 + 512
    omega
  | ⟨1, _⟩ =>
    show win0_16.index t (1 : Fin 2) * 384 ≤ (i 1).val ∧ (i 1).val < win0_16.index t (1 : Fin 2) * 384 + 384
    omega

/-- The output array after the region is the wide function of the arrays as the region finds them. -/
theorem final16 (c : Dev nD) : (dats m 0 c).arrAt 16 cfg0.N = slab (V m c main_arg0) (V m c main_arg1) (V m c main_arg2) (V m c main_v0) (V m c main_v1) (V m c main_arg4) (V m c main_arg5) (V m c main_arg6) (V m c main_v6) (V m c main_v2) (V m c main_v3) (V m c main_arg10) (V m c main_arg11) (V m c main_arg12) (V m c main_v9) (V m c main_v14) :=
  (dats m 0 c).arrAt_eq_of_cover 16 (slab (V m c main_arg0) (V m c main_arg1) (V m c main_arg2) (V m c main_v0) (V m c main_v1) (V m c main_arg4) (V m c main_arg5) (V m c main_arg6) (V m c main_v6) (V m c main_v2) (V m c main_v3) (V m c main_arg10) (V m c main_arg11) (V m c main_arg12) (V m c main_v9) (V m c main_v14)) (fun t _ => flushed16_eq m c t) cover16

end Cert.ReferenceIdeal.Arrays

end
-- ==== Proof.LibWindowSet.lean ====
/-
  A host scatter whose body returns the update — a "set" — read at one operand index.

  The host scatter is a left fold over the update positions: the step for a position replaces the entry it lands
  on (when it lands inside the operand) and leaves every other entry alone. With a body that returns the update,
  an operand index on which exactly one position lands ends with that position's update, and an index on which no
  position lands keeps the operand's entry.

  The second half reads the one-window form: a whole [R', C'] array written into an [R, C] array at row 0 and at a
  column offset given by a one-element index vector. Position (p, q) lands on (p, offset + q), so inside the
  window the result is the update and outside it the operand.
-/
import Idealize.ShloMosaic.PureOps
import Idealize.ShloMosaic.Lib.ValueIdx

namespace Cert.WindowSet

open Idealize.ShloMosaic Idealize.ShloMosaic.ValueIdx

/-- A fold of steps each of which changes at most the entry its position lands on leaves an entry on which no
    listed position lands as it was. -/
theorem foldl_set_miss {ι κ α : Type} (g : κ → Option ι) (step : (ι → α) → κ → ι → α)
    (hne : ∀ r n j, g n = some j → ∀ j', j' ≠ j → step r n j' = r j')
    (hnone : ∀ r n, g n = none → step r n = r)
    (L : List κ) (x : ι → α) (i : ι) (h : ∀ n ∈ L, g n ≠ some i) : (L.foldl step x) i = x i := by
  induction L generalizing x with
  | nil => rfl
  | cons n L ih =>
    rw [List.foldl_cons, ih _ (fun n' hn' => h n' (List.mem_cons_of_mem _ hn'))]
    cases hg : g n with
    | none => rw [hnone x n hg]
    | some j =>
      refine hne x n j hg i (fun e => h n List.mem_cons_self ?_)
      rw [hg, e]

/-- When exactly one listed position lands on an entry, the fold leaves that position's update there. -/
theorem foldl_set_hit {ι κ α : Type} (g : κ → Option ι) (upd : κ → α) (step : (ι → α) → κ → ι → α)
    (heq : ∀ r n j, g n = some j → step r n j = upd n)
    (hne : ∀ r n j, g n = some j → ∀ j', j' ≠ j → step r n j' = r j')
    (hnone : ∀ r n, g n = none → step r n = r)
    (L : List κ) (hL : L.Nodup) (x : ι → α) (i : ι) (n : κ) (hn : n ∈ L) (hgn : g n = some i)
    (huniq : ∀ n' ∈ L, g n' = some i → n' = n) : (L.foldl step x) i = upd n := by
  induction L generalizing x with
  | nil => cases hn
  | cons a L ih =>
    rw [List.foldl_cons]
    rcases List.mem_cons.mp hn with rfl | hn'
    · have hnot : ∀ n' ∈ L, g n' ≠ some i := fun n' hn' e => by
        have := huniq n' (List.mem_cons_of_mem _ hn') e
        subst this
        exact (List.nodup_cons.mp hL).1 hn'
      rw [foldl_set_miss g step hne hnone L _ i hnot]
      exact heq x n i hgn
    · exact ih (List.nodup_cons.mp hL).2 _ hn' (fun n' h' e => huniq n' (List.mem_cons_of_mem _ h') e)

variable {s si u : Shape} {w : Nat} {α : Type}

/-- An operand index no update position lands on keeps the operand's entry. -/
theorem scatter_set_miss (d : ScatterDims s si u) (x : s.Idx → α) (idx : IVec si w) (upd : u.Idx → α) (i : s.Idx)
    (h : ∀ j : u.Idx, d.resultIdx? j idx ≠ some i) : Host.scatter d (fun _ b => b) x idx upd i = x i := by
  unfold Host.scatter
  refine foldl_set_miss (fun n => d.resultIdx? (u.rowMajor.symm n) idx) _ ?_ ?_ _ x i (fun n _ => h _)
  · intro r n j hj j' hj'; simp only [hj]; exact if_neg hj'
  · intro r n hn; simp only [hn]

/-- An operand index exactly one update position lands on ends with that position's update. -/
theorem scatter_set_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  unfold Host.scatter
  refine (foldl_set_hit (fun n => d.resultIdx? (u.rowMajor.symm n) idx) (fun n => upd (u.rowMajor.symm n)) _ ?_ ?_ ?_
    (List.finRange u.numel) (List.nodup_finRange _) x i (u.rowMajor j) (List.mem_finRange _) ?_ ?_).trans ?_
  · intro r n j' hj'; simp [hj']
  · intro r n j' hj' j'' hne; simp only [hj']; exact if_neg hne
  · intro r n hn; simp only [hn]
  · simp only [Equiv.symm_apply_apply]; exact hj
  · intro n' _ e; rw [← huniq _ e, Equiv.apply_symm_apply]
  · rw [Equiv.symm_apply_apply]

/-! ## One window at a column offset -/

section Window

variable {R C R' C' : ℕ}

/-- The dimension record of a whole [R', C'] update written into an [R, C] operand at a start given by a
    one-element index vector naming the column axis. -/
abbrev colWindow (wf : ScatterDims.WF ⟨2, ![R, C]⟩ ⟨1, ![1]⟩ ⟨2, ![R', C']⟩ [0, 1] [] [1] 0) :
    ScatterDims ⟨2, ![R, C]⟩ ⟨1, ![1]⟩ ⟨2, ![R', C']⟩ :=
  { updateWindowDims := [0, 1], insertedWindowDims := [], scatterDimsToOperandDims := [1], indexVectorDim := 0, wf := wf }

variable (wf : ScatterDims.WF ⟨2, ![R, C]⟩ ⟨1, ![1]⟩ ⟨2, ![R', C']⟩ [0, 1] [] [1] 0)
  (idx : IVec ⟨1, ![1]⟩ w) (o : ℕ) (ho : ∀ k, (idx k).toInt = (o : ℤ))

include ho in
/-- Update position (p, q) lands on (p, o + q). -/
theorem colWindow_resultIdx (j : (⟨2, ![R', C']⟩ : Shape).Idx) (r : Fin R) (c : Fin C) (hr : r.val = (j 0).val)
    (hc : c.val = o + (j 1).val) : (colWindow wf).resultIdx? j idx = some (ix2 r c) := by
  have hs0 : (colWindow wf).start j idx 0 = 0 := by
    unfold ScatterDims.start
    exact dif_neg fun h => Nat.zero_ne_one (congrArg Fin.val (List.mem_singleton.mp h))
  have hs1 : (colWindow wf).start j idx 1 = (o : ℤ) := by
    unfold ScatterDims.start; rw [dif_pos (List.mem_singleton.mpr rfl)]; exact ho _
  have hk0 : (0 : Fin (⟨2, ![R, C]⟩ : Shape).rank) ∈ (colWindow wf).sKept :=
    List.mem_filter.mpr ⟨List.mem_finRange _, decide_eq_true List.not_mem_nil⟩
  have hk1 : (1 : Fin (⟨2, ![R, C]⟩ : Shape).rank) ∈ (colWindow wf).sKept :=
    List.mem_filter.mpr ⟨List.mem_finRange _, decide_eq_true List.not_mem_nil⟩
  have hw0 : (colWindow wf).window j 0 = (j 0).val := by
    unfold ScatterDims.window; rw [dif_pos hk0]; rfl
  have hw1 : (colWindow wf).window j 1 = (j 1).val := by
    unfold ScatterDims.window; rw [dif_pos hk1]; rfl
  unfold ScatterDims.resultIdx?
  have hin : ∀ a, 0 ≤ (colWindow wf).start j idx a + (colWindow wf).window j a
      ∧ (colWindow wf).start j idx a + (colWindow wf).window j a < (⟨2, ![R, C]⟩ : Shape).size a := by
    intro a
    match a with
    | ⟨0, _⟩ =>
      rw [show (⟨0, _⟩ : Fin (⟨2, ![R, C]⟩ : Shape).rank) = 0 from rfl, hs0, hw0]
      have := r.isLt
      show (0 : ℤ) ≤ 0 + ((j 0).val : ℤ) ∧ (0 : ℤ) + ((j 0).val : ℤ) < (R : ℤ)
      omega
    | ⟨1, _⟩ =>
      rw [show (⟨1, _⟩ : Fin (⟨2, ![R, C]⟩ : Shape).rank) = 1 from rfl, hs1, hw1]
      have := c.isLt
      show (0 : ℤ) ≤ (o : ℤ) + ((j 1).val : ℤ) ∧ (o : ℤ) + ((j 1).val : ℤ) < (C : ℤ)
      omega
  rw [dif_pos hin]
  refine congrArg some (funext fun a => Fin.ext ?_)
  match a with
  | ⟨0, _⟩ =>
    show ((colWindow wf).start j idx 0 + ((colWindow wf).window j 0 : ℤ)).toNat = r.val
    rw [hs0, hw0]; omega
  | ⟨1, _⟩ =>
    show ((colWindow wf).start j idx 1 + ((colWindow wf).window j 1 : ℤ)).toNat = c.val
    rw [hs1, hw1]; omega

include ho in
/-- Where update position j lands, with the bounds taken from the window fitting the operand. -/
theorem colWindow_lands (hR : R' ≤ R) (hC : o + C' ≤ C) (j : (⟨2, ![R', C']⟩ : Shape).Idx) :
    (colWindow wf).resultIdx? j idx
      = some (ix2 (⟨(j 0).val, Nat.lt_of_lt_of_le (j 0).isLt hR⟩ : Fin R)
          (⟨o + (j 1).val, Nat.lt_of_lt_of_le (Nat.add_lt_add_left (j 1).isLt o) hC⟩ : Fin C)) :=
  colWindow_resultIdx wf idx o ho j _ _ rfl rfl

include ho in
/-- Inside the window the result is the update: at (r, c) with r = p and c = o + q it is the update at (p, q). -/
theorem colWindow_set_inside (hR : R' ≤ R) (hC : o + C' ≤ C)
    (d : ScatterDims ⟨2, ![R, C]⟩ ⟨1, ![1]⟩ ⟨2, ![R', C']⟩) (hd : d = colWindow wf)
    (x : (⟨2, ![R, C]⟩ : Shape).Idx → α) (upd : (⟨2, ![R', C']⟩ : Shape).Idx → α)
    (r : Fin R) (c : Fin C) (p : Fin R') (q : Fin C') (hr : r.val = p.val) (hc : c.val = o + q.val) :
    Host.scatter d (fun _ b => b) x idx upd (ix2 r c) = upd (ix2 p q) := by
  subst hd
  refine scatter_set_hit _ x idx upd _ (ix2 p q) (colWindow_resultIdx wf idx o ho _ r c hr hc) fun j' hj' => ?_
  have e2 := Option.some.inj ((colWindow_lands wf idx o ho hR hC j').symm.trans hj')
  have e0 : (j' 0).val = r.val := congrArg (fun i : (⟨2, ![R, C]⟩ : Shape).Idx => (i 0).val) e2
  have e1 : o + (j' 1).val = c.val := congrArg (fun i : (⟨2, ![R, C]⟩ : Shape).Idx => (i 1).val) e2
  refine (eq_ix2 j').trans (congrArg₂ ix2 (Fin.ext ?_) (Fin.ext ?_))
  · show (j' 0).val = p.val; omega
  · show (j' 1).val = q.val; omega

include ho in
/-- Outside the window — a row past the update's rows, or a column before the offset or past the window — the
    result is the operand. -/
theorem colWindow_set_outside (hR : R' ≤ R) (hC : o + C' ≤ C)
    (d : ScatterDims ⟨2, ![R, C]⟩ ⟨1, ![1]⟩ ⟨2, ![R', C']⟩) (hd : d = colWindow wf)
    (x : (⟨2, ![R, C]⟩ : Shape).Idx → α) (upd : (⟨2, ![R', C']⟩ : Shape).Idx → α)
    (r : Fin R) (c : Fin C) (hout : R' ≤ r.val ∨ c.val < o ∨ o + C' ≤ c.val) :
    Host.scatter d (fun _ b => b) x idx upd (ix2 r c) = x (ix2 r c) := by
  subst hd
  refine scatter_set_miss _ x idx upd _ fun j' hj' => ?_
  have e2 := Option.some.inj ((colWindow_lands wf idx o ho hR hC j').symm.trans hj')
  have e0 : (j' 0).val = r.val := congrArg (fun i : (⟨2, ![R, C]⟩ : Shape).Idx => (i 0).val) e2
  have e1 : o + (j' 1).val = c.val := congrArg (fun i : (⟨2, ![R, C]⟩ : Shape).Idx => (i 1).val) e2
  have := (j' 0).isLt; have := (j' 1).isLt
  have h0 : (j' 0).val < R' := (j' 0).isLt
  have h1 : (j' 1).val < C' := (j' 1).isLt
  omega

end Window

end Cert.WindowSet
-- ==== Proof.ReferenceHost.lean ====
/-
  The arrays the reference's host lines build before its kernel runs, read at an entry.

  The first-layer weight matrices are cut after their 256th row. The last-layer weights of the two heads are written
  into zero arrays 384 columns wide — the forward head's at column 0, the inverse head's at column 256 — and the two
  last biases into one zero row the same way. So left of column 256 the padded forward weights are the forward
  weights, the padded inverse weights are zero and the packed bias is the forward bias; from column 256 on it is the
  other way round.
-/
import proofs.«118160_g2000603512130328_pallasbulk_154_24_alg».proof.Proof.Gen.ReferenceIdeal.Frame
import Idealize.ShloMosaic.Lib.StableHlo.Run
import Idealize.ShloMosaic.Lib.ValueLayout
import Idealize.ShloMosaic.PureOps.Ideal.Laws
import proofs.«118160_g2000603512130328_pallasbulk_154_24_alg».proof.Proof.LibWindowSet
import proofs.«118160_g2000603512130328_pallasbulk_154_24_alg».proof.Proof.IcmSpec

set_option maxRecDepth 16384

noncomputable section

namespace Cert.ReferenceIdeal.HostSide

open Cert.ReferenceIdeal Cert.ReferenceIdeal.Gen Idealize.ShloMosaic Idealize.ShloMosaic.TcCoe Idealize.SL.Sem
open Idealize.ShloMosaic.ValueIdx Cert.IcmSpec Cert.WindowSet

variable (m : (ℓ : Loc nD τ sig) → Buf (Elt Ideal) ℓ)

/-! ## The host lines' results as terms of the arguments -/

theorem V_v0 (c : Dev nD) : (V m c main_v0 : S256x512.Idx → EReal)
    = extractStridedSlice S256x512 ![0, 0] (m ((c : Thread nD τ).loc main_arg3)) slices_S384x512_S256x512_0_0 := by
  show StableHlo.after hostOps0 (fun b => m (c, b)) (Proc.devRef .tc main_v0) = _
  after_results

theorem V_v1 (c : Dev nD) : (V m c main_v1 : S128x512.Idx → EReal)
    = extractStridedSlice S128x512 ![256, 0] (m ((c : Thread nD τ).loc main_arg3)) slices_S384x512_S128x512_256_0 := by
  show StableHlo.after hostOps0 (fun b => m (c, b)) (Proc.devRef .tc main_v1) = _
  after_results

theorem V_v2 (c : Dev nD) : (V m c main_v2 : S256x512.Idx → EReal)
    = extractStridedSlice S256x512 ![0, 0] (m ((c : Thread nD τ).loc main_arg9)) slices_S512x512_S256x512_0_0 := by
  show StableHlo.after hostOps0 (fun b => m (c, b)) (Proc.devRef .tc main_v2) = _
  after_results

theorem V_v3 (c : Dev nD) : (V m c main_v3 : S256x512.Idx → EReal)
    = extractStridedSlice S256x512 ![256, 0] (m ((c : Thread nD τ).loc main_arg9)) slices_S512x512_S256x512_256_0 := by
  show StableHlo.after hostOps0 (fun b => m (c, b)) (Proc.devRef .tc main_v3) = _
  after_results

theorem V_v6 (c : Dev nD) : (V m c main_v6 : S256x384.Idx → EReal)
    = Host.scatter scatter_S256x384_S1_S256x256_01_n_1_0 (fun _ b => b) (broadcastInDim S256x384 ![] bcast_S_S256x384 (constant (F := Ideal) S_ .f32 0x00000000#32)) (broadcastInDim S1 ![] bcast_S_S1 (constantI S_ 32 0#32)) (m ((c : Thread nD τ).loc main_arg7)) := by
  show StableHlo.after hostOps0 (fun b => m (c, b)) (Proc.devRef .tc main_v6) = _
  after_results

theorem V_v9 (c : Dev nD) : (V m c main_v9 : S256x384.Idx → EReal)
    = Host.scatter scatter_S256x384_S1_S256x128_01_n_1_0 (fun _ b => b) (broadcastInDim S256x384 ![] bcast_S_S256x384 (constant (F := Ideal) S_ .f32 0x00000000#32)) (broadcastInDim S1 ![] bcast_S_S1 (constantI S_ 32 256#32)) (m ((c : Thread nD τ).loc main_arg13)) := by
  show StableHlo.after hostOps0 (fun b => m (c, b)) (Proc.devRef .tc main_v9) = _
  after_results

theorem V_v14 (c : Dev nD) : (V m c main_v14 : S1x384.Idx → EReal)
    = Host.scatter scatter_S1x384_S1_S1x128_01_n_1_0 (fun _ b => b)
        (Host.scatter scatter_S1x384_S1_S1x256_01_n_1_0 (fun _ b => b) (broadcastInDim S1x384 ![] bcast_S_S1x384 (constant (F := Ideal) S_ .f32 0x00000000#32)) (broadcastInDim S1 ![] bcast_S_S1 (constantI S_ 32 0#32)) (m ((c : Thread nD τ).loc main_arg8)))
        (broadcastInDim S1 ![] bcast_S_S1 (constantI S_ 32 256#32)) (m ((c : Thread nD τ).loc main_arg14)) := by
  show StableHlo.after hostOps0 (fun b => m (c, b)) (Proc.devRef .tc main_v14) = _
  after_results

/-! ## The cuts of the first-layer weights -/

theorem cut_v0 (c : Dev nD) : mat (V m c main_v0) = topRows 256 (by norm_num) (m ((c : Thread nD τ).loc main_arg3)) := by
  rw [V_v0]; funext k j
  exact slice2_axis0_apply 0 _ _ k j _ (Nat.zero_add _).symm

theorem cut_v1 (c : Dev nD) : mat (V m c main_v1) = rowsFrom 256 128 (by norm_num) (m ((c : Thread nD τ).loc main_arg3)) := by
  rw [V_v1]; funext k j
  exact slice2_axis0_apply 256 _ _ k j _ rfl

theorem cut_v2 (c : Dev nD) : mat (V m c main_v2) = topRows 256 (by norm_num) (m ((c : Thread nD τ).loc main_arg9)) := by
  rw [V_v2]; funext k j
  exact slice2_axis0_apply 0 _ _ k j _ (Nat.zero_add _).symm

theorem cut_v3 (c : Dev nD) : mat (V m c main_v3) = rowsFrom 256 256 (by norm_num) (m ((c : Thread nD τ).loc main_arg9)) := by
  rw [V_v3]; funext k j
  exact slice2_axis0_apply 256 _ _ k j _ rfl

/-! ## The padded last-layer weights and the packed bias -/

theorem start0 (k : S1.Idx) : ((broadcastInDim S1 ![] bcast_S_S1 (constantI S_ 32 0#32)) k).toInt = ((0 : ℕ) : ℤ) := by
  show (0#32 : BitVec 32).toInt = ((0 : ℕ) : ℤ); decide

theorem start256 (k : S1.Idx) : ((broadcastInDim S1 ![] bcast_S_S1 (constantI S_ 32 256#32)) k).toInt = ((256 : ℕ) : ℤ) := by
  show (256#32 : BitVec 32).toInt = ((256 : ℕ) : ℤ); decide

theorem zeros_apply (S : Shape) (h : S_.BroadcastsInDim S ![]) (i : S.Idx) :
    broadcastInDim S ![] h (constant (F := Ideal) S_ .f32 0x00000000#32) i = (0 : EReal) :=
  Ideal.ofBits_zero_f32

/-- Left of column 256 the padded forward weights are the forward weights. -/
theorem pad_v6_left (c : Dev nD) (k : Fin 256) (j : Fin 256) (cc : Fin 384) (h : cc.val = j.val) :
    V m c main_v6 (ix2 k cc) = (m ((c : Thread nD τ).loc main_arg7)) (ix2 k j) := by
  rw [V_v6]
  exact colWindow_set_inside scatter_S256x384_S1_S256x256_01_n_1_0_wf _ 0 start0 (le_refl _) (by norm_num) _ rfl _ _ k cc k j rfl
    (by omega)

/-- From column 256 on they are zero. -/
theorem pad_v6_right (c : Dev nD) (k : Fin 256) (cc : Fin 384) (h : 256 ≤ cc.val) :
    V m c main_v6 (ix2 k cc) = (0 : EReal) := by
  rw [V_v6]
  exact (colWindow_set_outside scatter_S256x384_S1_S256x256_01_n_1_0_wf _ 0 start0 (le_refl _) (by norm_num) _ rfl _ _ k cc
    (Or.inr (Or.inr (by omega)))).trans (zeros_apply _ _ _)

/-- Left of column 256 the padded inverse weights are zero. -/
theorem pad_v9_left (c : Dev nD) (k : Fin 256) (cc : Fin 384) (h : cc.val < 256) :
    V m c main_v9 (ix2 k cc) = (0 : EReal) := by
  rw [V_v9]
  exact (colWindow_set_outside scatter_S256x384_S1_S256x128_01_n_1_0_wf _ 256 start256 (le_refl _) (by norm_num) _ rfl _ _ k cc
    (Or.inr (Or.inl h))).trans (zeros_apply _ _ _)

/-- From column 256 on they are the inverse weights. -/
theorem pad_v9_right (c : Dev nD) (k : Fin 256) (j : Fin 128) (cc : Fin 384) (h : cc.val = 256 + j.val) :
    V m c main_v9 (ix2 k cc) = (m ((c : Thread nD τ).loc main_arg13)) (ix2 k j) := by
  rw [V_v9]
  exact colWindow_set_inside scatter_S256x384_S1_S256x128_01_n_1_0_wf _ 256 start256 (le_refl _) (by norm_num) _ rfl _ _ k cc k j rfl h

/-- Left of column 256 the packed bias is the forward bias. -/
theorem pack_left (c : Dev nD) (j : Fin 256) (cc : Fin 384) (h : cc.val = j.val) :
    V m c main_v14 (ix2 (0 : Fin 1) cc) = (m ((c : Thread nD τ).loc main_arg8)) (ix2 (0 : Fin 1) j) := by
  rw [V_v14]
  refine (colWindow_set_outside scatter_S1x384_S1_S1x128_01_n_1_0_wf _ 256 start256 (le_refl _) (by norm_num) _ rfl _ _ 0 cc
    (Or.inr (Or.inl (by omega)))).trans ?_
  exact colWindow_set_inside scatter_S1x384_S1_S1x256_01_n_1_0_wf _ 0 start0 (le_refl _) (by norm_num) _ rfl _ _ 0 cc 0 j rfl
    (by omega)

/-- From column 256 on it is the inverse bias. -/
theorem pack_right (c : Dev nD) (j : Fin 128) (cc : Fin 384) (h : cc.val = 256 + j.val) :
    V m c main_v14 (ix2 (0 : Fin 1) cc) = (m ((c : Thread nD τ).loc main_arg14)) (ix2 (0 : Fin 1) j) := by
  rw [V_v14]
  exact colWindow_set_inside scatter_S1x384_S1_S1x128_01_n_1_0_wf _ 256 start256 (le_refl _) (by norm_num) _ rfl _ _ 0 cc 0 j rfl h

end Cert.ReferenceIdeal.HostSide

end
-- ==== Proof.ReferenceResults.lean ====
/-
  The reference's two results.

  After its kernel the reference cuts the wide output: columns 0 … 255 are the first result, columns 256 … 383 the
  second. Left of column 256 the padded inverse weights are zero, so a column of the wide output there is the forward
  head alone; from column 256 on the padded forward weights are zero, so a column there is the inverse head alone. A
  product with zero is zero and adding zero changes nothing on every extended real, so no finiteness is used.
-/
import proofs.«118160_g2000603512130328_pallasbulk_154_24_alg».proof.Proof.ReferenceArrays
import proofs.«118160_g2000603512130328_pallasbulk_154_24_alg».proof.Proof.ReferenceHost

set_option maxRecDepth 16384

noncomputable section

namespace Cert.ReferenceIdeal.Results

open Cert.ReferenceIdeal Cert.ReferenceIdeal.Gen Idealize.ShloMosaic Idealize.ShloMosaic.TcCoe Idealize.SL.Sem
open Idealize.ShloMosaic.ValueIdx Cert.MlpHead Cert.IcmSpec Cert.ReferenceIdeal.Arrays Cert.ReferenceIdeal.HostSide

variable (m : (ℓ : Loc nD τ sig) → Buf (Elt Ideal) ℓ) (ρ : Dev nD → PrngReg)

/-- The wide output as the lines after the region find it. -/
theorem tail_slab (c : Dev nD) :
    Pipeline.withArrays (cfgs 0).spec c (V0 m c) (fun w => (dats m 0 c).arrAt w (cfgs 0).N) (Proc.devRef .tc main_v15)
      = slab (V m c main_arg0) (V m c main_arg1) (V m c main_arg2) (V m c main_v0) (V m c main_v1) (V m c main_arg4) (V m c main_arg5) (V m c main_arg6) (V m c main_v6) (V m c main_v2) (V m c main_v3) (V m c main_arg10) (V m c main_arg11) (V m c main_arg12) (V m c main_v9) (V m c main_v14) :=
  (Pipeline.withArrays_arr spec0 launch0.win.arr_inj c (V0 m c) (fun w => (dats m 0 c).arrAt w cfg0.N) 16).trans (final16 m c)

/-- The first result is the forward head, row by row. -/
theorem res16 (c : Dev nD) : Pipeline.afterTail₀ cfgs (dats m) 0 (V0 m) [hostOps1] c main_v16
    = nsPred (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v16) = _
  after_results
  rw [tail_slab m c]
  funext i
  obtain ⟨r, j, rfl⟩ : ∃ (r : Fin 8192) (j : Fin 256), i = ix2 r j := ⟨i 0, i 1, eq_ix2 i⟩
  have hcc : j.val < 384 := by have := j.isLt; omega
  refine (slice2_axis1_apply 0 _ _ r j ⟨j.val, hcc⟩ (Nat.zero_add _).symm).trans ?_
  show wide (row (V m c main_arg0) r) (row (V m c main_arg2) r) (row (V m c main_arg1) r) (mat (V m c main_v0)) (mat (V m c main_v1))
      (row (V m c main_arg4) 0) (mat (V m c main_arg5)) (row (V m c main_arg6) 0) (mat (V m c main_v6)) (mat (V m c main_v2)) (mat (V m c main_v3))
      (row (V m c main_arg10) 0) (mat (V m c main_arg11)) (row (V m c main_arg12) 0) (mat (V m c main_v9)) (row (V m c main_v14) 0) ⟨j.val, hcc⟩
    = head (row (m ((c : Thread nD τ).loc main_arg0)) r) (row (m ((c : Thread nD τ).loc main_arg2)) r) (topRows 256 (by norm_num) (m ((c : Thread nD τ).loc main_arg3))) (rowsFrom 256 128 (by norm_num) (m ((c : Thread nD τ).loc main_arg3)))
        (row (m ((c : Thread nD τ).loc main_arg4)) 0) (mat (m ((c : Thread nD τ).loc main_arg5))) (row (m ((c : Thread nD τ).loc main_arg6)) 0) (mat (m ((c : Thread nD τ).loc main_arg7))) (row (m ((c : Thread nD τ).loc main_arg8)) 0) j
  rw [cut_v0 m c, cut_v1 m c, V_main_arg0 m c, V_main_arg2 m c, V_main_arg4 m c, V_main_arg5 m c, V_main_arg6 m c]
  exact wide_left _ _ _ _ _ _ _ _ _ _ _ _ _ _ _ _ (mat (m ((c : Thread nD τ).loc main_arg7))) (row (m ((c : Thread nD τ).loc main_arg8)) 0) ⟨j.val, hcc⟩ j
    (fun k => pad_v6_left m c k j _ rfl) (fun k => pad_v9_left m c k _ j.isLt) (pack_left m c j _ rfl)

/-- The second result is the inverse head, row by row. -/
theorem res17 (c : Dev nD) : Pipeline.afterTail₀ cfgs (dats m) 0 (V0 m) [hostOps1] c main_v17
    = actPred (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold Pipeline.afterTail₀
  show StableHlo.after hostOps1 _ (Proc.devRef .tc main_v17) = _
  after_results
  rw [tail_slab m c]
  funext i
  obtain ⟨r, j, rfl⟩ : ∃ (r : Fin 8192) (j : Fin 128), i = ix2 r j := ⟨i 0, i 1, eq_ix2 i⟩
  have hcc : 256 + j.val < 384 := by have := j.isLt; omega
  refine (slice2_axis1_apply 256 _ _ r j ⟨256 + j.val, hcc⟩ rfl).trans ?_
  show wide (row (V m c main_arg0) r) (row (V m c main_arg2) r) (row (V m c main_arg1) r) (mat (V m c main_v0)) (mat (V m c main_v1))
      (row (V m c main_arg4) 0) (mat (V m c main_arg5)) (row (V m c main_arg6) 0) (mat (V m c main_v6)) (mat (V m c main_v2)) (mat (V m c main_v3))
      (row (V m c main_arg10) 0) (mat (V m c main_arg11)) (row (V m c main_arg12) 0) (mat (V m c main_v9)) (row (V m c main_v14) 0) ⟨256 + j.val, hcc⟩
    = head (row (m ((c : Thread nD τ).loc main_arg0)) r) (row (m ((c : Thread nD τ).loc main_arg1)) r) (topRows 256 (by norm_num) (m ((c : Thread nD τ).loc main_arg9))) (rowsFrom 256 256 (by norm_num) (m ((c : Thread nD τ).loc main_arg9)))
        (row (m ((c : Thread nD τ).loc main_arg10)) 0) (mat (m ((c : Thread nD τ).loc main_arg11))) (row (m ((c : Thread nD τ).loc main_arg12)) 0) (mat (m ((c : Thread nD τ).loc main_arg13))) (row (m ((c : Thread nD τ).loc main_arg14)) 0) j
  rw [cut_v2 m c, cut_v3 m c, V_main_arg0 m c, V_main_arg1 m c, V_main_arg10 m c, V_main_arg11 m c, V_main_arg12 m c]
  exact wide_right _ _ _ _ _ _ _ _ _ _ _ _ _ _ _ _ (mat (m ((c : Thread nD τ).loc main_arg13))) (row (m ((c : Thread nD τ).loc main_arg14)) 0) ⟨256 + j.val, hcc⟩ j
    (fun k => pad_v6_right m c k _ (Nat.le_add_right 256 j.val)) (fun k => pad_v9_right m c k j _ rfl) (pack_right m c j _ rfl)

/-- Every weakly fair execution of the reference program ends with its two results at the two whole-array functions
    of the arguments, the arguments unchanged. -/
theorem run : θ_run defs (onTc (τ := τ) (main (F := Ideal))) ⟨m, fun _ => 0, ρ⟩ fun r => ∀ c : Dev nD,
      r.2.mem ((c : Thread nD τ).loc main_v16) = nsPred (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v17) = actPred (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c =>
    ⟨((h c).2 main_v16 (Pipeline.mem_restRefs_of main_v16 (by decide) (by decide))).trans (res16 m c),
      ((h c).2 main_v17 (Pipeline.mem_restRefs_of main_v17 (by decide) (by decide))).trans (res17 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 11).trans (((dats m 0 c).arrAt_in 11 rfl _).trans ((A_eq m c 11).trans (V_main_arg10 m c))),
      ((h c).1 12).trans (((dats m 0 c).arrAt_in 12 rfl _).trans ((A_eq m c 12).trans (V_main_arg11 m c))),
      ((h c).1 13).trans (((dats m 0 c).arrAt_in 13 rfl _).trans ((A_eq m c 13).trans (V_main_arg12 m c))),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩)
    (run_main m ρ)

end Cert.ReferenceIdeal.Results

end
-- ==== Proof.lean ====
/-
  Two three-layer perceptron heads over one batch: the kernel against its reference, over the extended reals.

  The kernel computes the forward head (from the state and the action) and the inverse head (from the state and the
  next state) directly, 1024 rows at a grid point, casting its matrix operands to a narrower float format, which is the
  identity here. The reference computes the same two heads 512 rows at a grid point but sends both through one last
  layer 384 columns wide, whose weights are the two heads' last weights laid side by side in arrays padded with zeros,
  and cuts the wide result in two afterwards. Both programs end at the same two whole-array functions of the argument
  arrays (IcmSpec): for the kernel by reading its two output blocks at an entry and tiling the arrays with the eight
  blocks; for the reference the same with sixteen blocks, then the padding law — a product with zero is zero and a sum
  of zeros adds nothing, on every extended real — at each column of the cut. No argument needs to be finite.
  The three frames are the generated ones; the idealization rewrote nothing, so that claim is trivial.
-/
import proofs.«118160_g2000603512130328_pallasbulk_154_24_alg».proof.Defs
import proofs.«118160_g2000603512130328_pallasbulk_154_24_alg».proof.Proof.Gen.Kernel
import proofs.«118160_g2000603512130328_pallasbulk_154_24_alg».proof.Proof.Gen.Kernel.Skeleton
import proofs.«118160_g2000603512130328_pallasbulk_154_24_alg».proof.Proof.Gen.Kernel.Launch
import proofs.«118160_g2000603512130328_pallasbulk_154_24_alg».proof.Proof.Gen.Kernel.Points
import proofs.«118160_g2000603512130328_pallasbulk_154_24_alg».proof.Proof.Gen.Kernel.Frame
import proofs.«118160_g2000603512130328_pallasbulk_154_24_alg».proof.Proof.Gen.KernelIdeal
import proofs.«118160_g2000603512130328_pallasbulk_154_24_alg».proof.Proof.Gen.KernelIdeal.Skeleton
import proofs.«118160_g2000603512130328_pallasbulk_154_24_alg».proof.Proof.Gen.KernelIdeal.Launch
import proofs.«118160_g2000603512130328_pallasbulk_154_24_alg».proof.Proof.Gen.KernelIdeal.Points
import proofs.«118160_g2000603512130328_pallasbulk_154_24_alg».proof.Proof.Gen.KernelIdeal.Frame
import proofs.«118160_g2000603512130328_pallasbulk_154_24_alg».proof.Proof.Gen.KernelIdeal.Value
import proofs.«118160_g2000603512130328_pallasbulk_154_24_alg».proof.Proof.Gen.ReferenceIdeal
import proofs.«118160_g2000603512130328_pallasbulk_154_24_alg».proof.Proof.Gen.ReferenceIdeal.Skeleton
import proofs.«118160_g2000603512130328_pallasbulk_154_24_alg».proof.Proof.Gen.ReferenceIdeal.Launch
import proofs.«118160_g2000603512130328_pallasbulk_154_24_alg».proof.Proof.Gen.ReferenceIdeal.Points
import proofs.«118160_g2000603512130328_pallasbulk_154_24_alg».proof.Proof.Gen.ReferenceIdeal.Frame
import proofs.«118160_g2000603512130328_pallasbulk_154_24_alg».proof.Proof.Gen.Pre_finite_inputs
import proofs.«118160_g2000603512130328_pallasbulk_154_24_alg».proof.Proof.KernelArrays
import proofs.«118160_g2000603512130328_pallasbulk_154_24_alg».proof.Proof.ReferenceResults
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- Both idealized programs, run from memories that agree on the arguments, end with their two results at the same two
    whole-array functions of those arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun r h c => ⟨(h c).1.trans ?_, (h c).2.1.trans ?_, (h c).2.2⟩)
    (Cert.ReferenceIdeal.Results.run m' ρ')
  · obtain ⟨a0, a1, a2, a3, a4, a5, a6, a7, a8, a9, a10, a11, a12, a13, a14⟩ := hagree c
    rw [a0, a2, a3, a4, a5, a6, a7, a8]
  · obtain ⟨a0, a1, a2, a3, a4, a5, a6, a7, a8, a9, a10, a11, a12, a13, a14⟩ := hagree c
    rw [a0, a1, a9, a10, a11, a12, a13, a14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
